-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x131072 : Shape := ⟨2, ![128, 131072]⟩
abbrev S1024x1024 : Shape := ⟨2, ![1024, 1024]⟩
abbrev S1024 : Shape := ⟨1, ![1024]⟩
abbrev S_ : Shape := ⟨0, ![]⟩

class Facts : Prop where
  bcast_S_S128x131072 : S_.BroadcastsInDim S128x131072 (![] : Fin 0 → Fin S128x131072.rank)
  reducesTo_S128x131072_S_d0_1 : S128x131072.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S128x131072 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S128x131072 .f32 := Host.absf main_arg0
  let main_cst : FVec F S_ .f32 := constant S_ .f32 0x7F800000#32
  let main_v1 : FVec F S128x131072 .f32 := broadcastInDim S128x131072 ![] bcast_S_S128x131072 main_cst
  let main_v2 : IVec S128x131072 1 := cmpf .olt main_v0 main_v1
  let main_c : IVec S_ 1 := constantI S_ 1 1#1
  let main_v3 : IVec S_ 1 := (fun x v => Host.reduce IntOp.andi x v reducesTo_S128x131072_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S128x131072 : Shape := ⟨2, ![128, 131072]⟩
abbrev S1024x1024 : Shape := ⟨2, ![1024, 1024]⟩
abbrev S1024 : Shape := ⟨1, ![1024]⟩
abbrev S128x128x1024 : Shape := ⟨3, ![128, 128, 1024]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S4x128x1024 : Shape := ⟨3, ![4, 128, 1024]⟩
abbrev S512x1024 : Shape := ⟨2, ![512, 1024]⟩
abbrev S512x3072 : Shape := ⟨2, ![512, 3072]⟩
abbrev S4x128x128 : Shape := ⟨3, ![4, 128, 128]⟩
abbrev S4x128 : Shape := ⟨2, ![4, 128]⟩
abbrev S4x128x1 : Shape := ⟨3, ![4, 128, 1]⟩

abbrev nBuf : Space → Nat
  | .hbm => 22
  | .vmem => 8
  | .smem => 0
  | _ => 0

abbrev bufTy : (tb : Table) → Fin (tcTables nBuf tb) → BufTy
  | .hbm, ⟨0, _⟩ => ⟨S128x131072, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S128x128x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S128x128x1024, .f32⟩
  | .hbm, ⟨21, _⟩ => ⟨S128x131072, .f32⟩
  | .local _ .vmem, ⟨0, _⟩ => ⟨S4x128x1024, .f32⟩
  | .local _ .vmem, ⟨1, _⟩ => ⟨S4x128x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1x1024, .f32⟩
  | .local _ .vmem, ⟨6, _⟩ => ⟨S4x128x1024, .f32⟩
  | .local _ .vmem, ⟨7, _⟩ => ⟨S4x128x1024, .f32⟩
  | _, _ => ⟨S128x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x131072_S128x128x1024 : S128x131072.ShapeCasts S128x128x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S4x128x1024_S4x128x1024_0_0_0 : ∀ a, (![0, 0, 0] : Fin 3 → Nat) a + S4x128x1024.size a ≤ S4x128x1024.size a
  h_S4x128x1024 : 0 < S4x128x1024.numel
  shapeCasts_S4x128x1024_S4x128x1024 : S4x128x1024.ShapeCasts S4x128x1024
  shapeCasts_S4x128x1024_S512x1024 : S4x128x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x3072_S512x3072 : S1x3072.Broadcasts S512x3072
  slices_S512x3072_o0_0_S512x1024 : S512x3072.Slices ![0, 0] S512x1024
  shapeCasts_S512x1024_S4x128x1024 : S512x1024.ShapeCasts S4x128x1024
  slices_S512x3072_o0_1024_S512x1024 : S512x3072.Slices ![0, 1024] S512x1024
  slices_S512x3072_o0_2048_S512x1024 : S512x3072.Slices ![0, 2048] S512x1024
  reduces_S4x128x128_S4x128 : S4x128x128.Reduces [2] S4x128
  shapeCasts_S4x128_S4x128x1 : S4x128.ShapeCasts S4x128x1
  broadcasts_S4x128x1_S4x128x128 : S4x128x1.Broadcasts S4x128x128
  broadcasts_S1x1024_S512x1024 : S1x1024.Broadcasts S512x1024
  shapeCasts_S128x128x1024_S128x131072 : S128x128x1024.ShapeCasts S128x131072
  dot_S512x1024_S1024x3072_S512x3072_1_0_0_1_n_n_wf : DotDims.WF S512x1024 S1024x3072 S512x3072 [1] [0] [0] [1] [] []
  dot_S4x128x1024_S4x128x1024_S4x128x128_2_2_1_1_0_0_wf : DotDims.WF S4x128x1024 S4x128x1024 S4x128x128 [2] [2] [1] [1] [0] [0]
  dot_S4x128x128_S4x128x1024_S4x128x1024_2_1_1_2_0_0_wf : DotDims.WF S4x128x128 S4x128x1024 S4x128x1024 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x1024.size a ≤ S128x128x1024.size a
  hwx0_0 : ∀ i : grid0.Coords, EltTy.bits .f32 = 32 ∨ (Rect.block (s := S128x128x1024) S4x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128x1024.size a ≤ S128x128x1024.size a
  hwx0_5 : ∀ i : grid0.Coords, EltTy.bits .f32 = 32 ∨ (Rect.block (s := S128x128x1024) S4x128x1024.size (cc0_transform_5 i) (hinb0_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S4x128x1024_S4x128x1024_S4x128x128_2_2_1_1_0_0 : DotDims S4x128x1024 S4x128x1024 S4x128x128 where
  lhsContracting := [2]
  rhsContracting := [2]
  lhsNonContracting := [1]
  rhsNonContracting := [1]
  lhsBatch := [0]
  rhsBatch := [0]
  wf := dot_S4x128x1024_S4x128x1024_S4x128x128_2_2_1_1_0_0_wf
def dot_S4x128x128_S4x128x1024_S4x128x1024_2_1_1_2_0_0 : DotDims S4x128x128 S4x128x1024 S4x128x1024 where
  lhsContracting := [2]
  rhsContracting := [1]
  lhsNonContracting := [1]
  rhsNonContracting := [2]
  lhsBatch := [0]
  rhsBatch := [0]
  wf := dot_S4x128x128_S4x128x1024_S4x128x1024_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S4x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4x128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x131072 : Shape := ⟨2, ![128, 131072]⟩
abbrev S1024x1024 : Shape := ⟨2, ![1024, 1024]⟩
abbrev S1024 : Shape := ⟨1, ![1024]⟩
abbrev S128x128x1024 : Shape := ⟨3, ![128, 128, 1024]⟩
abbrev S1x1x1024 : Shape := ⟨3, ![1, 1, 1024]⟩
abbrev S128x128x128 : Shape := ⟨3, ![128, 128, 128]⟩
abbrev S_ : Shape := ⟨0, ![]⟩
abbrev S128x128 : Shape := ⟨2, ![128, 128]⟩
abbrev S128x128x1 : Shape := ⟨3, ![128, 128, 1]⟩

abbrev nBuf : Space → Nat
  | .hbm => 47
  | .vmem => 0
  | .smem => 0
  | _ => 0

abbrev bufTy : (tb : Table) → Fin (tcTables nBuf tb) → BufTy
  | .hbm, ⟨0, _⟩ => ⟨S128x131072, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S128x128x1024, .f32⟩
  | .hbm, ⟨10, _⟩ => ⟨S128x128x1024, .f32⟩
  | .hbm, ⟨11, _⟩ => ⟨S1x1x1024, .f32⟩
  | .hbm, ⟨12, _⟩ => ⟨S128x128x1024, .f32⟩
  | .hbm, ⟨13, _⟩ => ⟨S128x128x1024, .f32⟩
  | .hbm, ⟨14, _⟩ => ⟨S128x128x1024, .f32⟩
  | .hbm, ⟨15, _⟩ => ⟨S1x1x1024, .f32⟩
  | .hbm, ⟨16, _⟩ => ⟨S128x128x1024, .f32⟩
  | .hbm, ⟨17, _⟩ => ⟨S128x128x1024, .f32⟩
  | .hbm, ⟨18, _⟩ => ⟨S128x128x1024, .f32⟩
  | .hbm, ⟨19, _⟩ => ⟨S1x1x1024, .f32⟩
  | .hbm, ⟨20, _⟩ => ⟨S128x128x1024, .f32⟩
  | .hbm, ⟨21, _⟩ => ⟨S128x128x1024, .f32⟩
  | .hbm, ⟨22, _⟩ => ⟨S128x128x128, .f32⟩
  | .hbm, ⟨23, _⟩ => ⟨S_, .f32⟩
  | .hbm, ⟨24, _⟩ => ⟨S_, .f32⟩
  | .hbm, ⟨25, _⟩ => ⟨S128x128x128, .f32⟩
  | .hbm, ⟨26, _⟩ => ⟨S128x128x128, .f32⟩
  | .hbm, ⟨27, _⟩ => ⟨S_, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128x1, .f32⟩
  | .hbm, ⟨33, _⟩ => ⟨S128x128x128, .f32⟩
  | .hbm, ⟨34, _⟩ => ⟨S128x128x128, .f32⟩
  | .hbm, ⟨35, _⟩ => ⟨S128x128x128, .f32⟩
  | .hbm, ⟨36, _⟩ => ⟨S_, .f32⟩
  | .hbm, ⟨37, _⟩ => ⟨S128x128, .f32⟩
  | .hbm, ⟨38, _⟩ => ⟨S128x128x1, .f32⟩
  | .hbm, ⟨39, _⟩ => ⟨S128x128x128, .f32⟩
  | .hbm, ⟨40, _⟩ => ⟨S128x128x128, .f32⟩
  | .hbm, ⟨41, _⟩ => ⟨S128x128x1024, .f32⟩
  | .hbm, ⟨42, _⟩ => ⟨S128x128x1024, .f32⟩
  | .hbm, ⟨43, _⟩ => ⟨S1x1x1024, .f32⟩
  | .hbm, ⟨44, _⟩ => ⟨S128x128x1024, .f32⟩
  | .hbm, ⟨45, _⟩ => ⟨S128x128x1024, .f32⟩
  | .hbm, ⟨46, _⟩ => ⟨S128x131072, .f32⟩
  | _, _ => ⟨S128x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  shapeCasts_S128x131072_S128x128x1024 : S128x131072.ShapeCasts S128x128x1024
  bcast_S1024_S1x1x1024_2 : S1024.BroadcastsInDim S1x1x1024 (![2] : Fin 1 → Fin S1x1x1024.rank)
  bcast_S1x1x1024_S128x128x1024_0_1_2 : S1x1x1024.BroadcastsInDim S128x128x1024 (![0, 1, 2] : Fin 3 → Fin S128x128x1024.rank)
  bcast_S_S128x128x128 : S_.BroadcastsInDim S128x128x128 (![] : Fin 0 → Fin S128x128x128.rank)
  reducesTo_S128x128x128_S128x128_d2 : S128x128x128.ReducesTo [2] S128x128
  h_S_ : 0 < S_.numel
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128x1_S128x128x128_0_1_2 : S128x128x1.BroadcastsInDim S128x128x128 (![0, 1, 2] : Fin 3 → Fin S128x128x128.rank)
  shapeCasts_S128x128x1024_S128x131072 : S128x128x1024.ShapeCasts S128x131072
  dot_S128x128x1024_S1024x1024_S128x128x1024_2_1_01_0_n_n_wf : DotDims.WF S128x128x1024 S1024x1024 S128x128x1024 [2] [1] [0, 1] [0] [] []
  dot_S128x128x1024_S128x128x1024_S128x128x128_2_2_1_1_0_0_wf : DotDims.WF S128x128x1024 S128x128x1024 S128x128x128 [2] [2] [1] [1] [0] [0]
  dot_S128x128x128_S128x128x1024_S128x128x1024_2_1_1_2_0_0_wf : DotDims.WF S128x128x128 S128x128x1024 S128x128x1024 [2] [1] [1] [2] [0] [0]

variable [Facts₀]

def dot_S128x128x1024_S1024x1024_S128x128x1024_2_1_01_0_n_n : DotDims S128x128x1024 S1024x1024 S128x128x1024 where
  lhsContracting := [2]
  rhsContracting := [1]
  lhsNonContracting := [0, 1]
  rhsNonContracting := [0]
  lhsBatch := []
  rhsBatch := []
  wf := dot_S128x128x1024_S1024x1024_S128x128x1024_2_1_01_0_n_n_wf
def dot_S128x128x1024_S128x128x1024_S128x128x128_2_2_1_1_0_0 : DotDims S128x128x1024 S128x128x1024 S128x128x128 where
  lhsContracting := [2]
  rhsContracting := [2]
  lhsNonContracting := [1]
  rhsNonContracting := [1]
  lhsBatch := [0]
  rhsBatch := [0]
  wf := dot_S128x128x1024_S128x128x1024_S128x128x128_2_2_1_1_0_0_wf
def dot_S128x128x128_S128x128x1024_S128x128x1024_2_1_1_2_0_0 : DotDims S128x128x128 S128x128x1024 S128x128x1024 where
  lhsContracting := [2]
  rhsContracting := [1]
  lhsNonContracting := [1]
  rhsNonContracting := [2]
  lhsBatch := [0]
  rhsBatch := [0]
  wf := dot_S128x128x128_S128x128x1024_S128x128x1024_2_1_1_2_0_0_wf

class Facts : Prop extends Facts₀ where

variable [Facts]
-- ==== Proof.FrameBits.lean ====
/- The frame of `Kernel`: @main is eleven host operations, one pipelined region over a grid of 32 points with six
   windows (five inputs, one output), and one host operation after it. This module states what every array holds when
   the region is entered, each window's block at a grid point, what the body leaves in the output window's buffer as a
   function of the five input blocks, the body's triple, the pipeline's proof data, and the run of @main from which the
   nine argument arrays are read back unchanged. -/
import proofs.«106226_j67637144978282_2_alg».proof.Proof.Gen.Kernel.Launch
import proofs.«106226_j67637144978282_2_alg».proof.Proof.Gen.Kernel.Skeleton
import proofs.«106226_j67637144978282_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle with extents 4 x 128 x 1024 is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch memory after the
    eleven host operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operation after it: it reduces to the
    region continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches only the pipeline's arrays and the buffers that bypass it: its buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes only its own result buffer, which is none of the six. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0` (each writes its own result buffer, a different one): the
    region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg0` is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1` (each writes its own result buffer, a different one): the
    region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg1` is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2` (each writes its own result buffer, a different one): the
    region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg2` is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3` (each writes its own result buffer, a different one): the
    region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg3` is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4` (each writes its own result buffer, a different one): the
    region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg4` is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5` (each writes its own result buffer, a different one): the
    region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg5` is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6` (each writes its own result buffer, a different one): the
    region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg6` is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7` (each writes its own result buffer, a different one): the
    region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg7` is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8` (each writes its own result buffer, a different one): the
    region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg8` is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the window is fetched there
    or not (unfetched, its block index has not moved), for any proof data whose array is the region-entry contents
    (`hA`) and whose body leaves the block in place (`hafter`); the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether the window is fetched there
    or not (unfetched, its block index has not moved), for any proof data whose array is the region-entry contents
    (`hA`) and whose body leaves the block in place (`hafter`); the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every grid point, whether the window is fetched there
    or not (unfetched, its block index has not moved), for any proof data whose array is the region-entry contents
    (`hA`) and whose body leaves the block in place (`hafter`); the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every grid point, whether the window is fetched there
    or not (unfetched, its block index has not moved), for any proof data whose array is the region-entry contents
    (`hA`) and whose body leaves the block in place (`hafter`); the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every grid point, whether the window is fetched there
    or not (unfetched, its block index has not moved), for any proof data whose array is the region-entry contents
    (`hA`) and whose body leaves the block in place (`hafter`); the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the pipeline's frame post, read at
    the nine argument arrays — none is an array of the pipeline, so each ends as the operation after the region leaves
    it, which is as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body's accesses -/

/-- Each input buffer is loaded whole; the output buffer is loaded whole once (the value is not used) and then stored
    whole once. -/
abbrev r0 : Rect S4x128x1024 := Rect.unit (s := S4x128x1024) ![0, 0, 0] S4x128x1024.size inb_S4x128x1024_S4x128x1024_0_0_0
abbrev r1 : Rect S1024x3072 := Rect.unit (s := S1024x3072) ![0, 0] S1024x3072.size inb_S1024x3072_S1024x3072_0_0
abbrev r2 : Rect S1x3072 := Rect.unit (s := S1x3072) ![0, 0] S1x3072.size inb_S1x3072_S1x3072_0_0
abbrev r3 : Rect S1024x1024 := Rect.unit (s := S1024x1024) ![0, 0] S1024x1024.size inb_S1024x1024_S1024x1024_0_0
abbrev r4 : Rect S1x1024 := Rect.unit (s := S1x1024) ![0, 0] S1x1024.size inb_S1x1024_S1x1024_0_0
abbrev r : Rect S4x128x1024 := Rect.unit (s := S4x128x1024) ![0, 0, 0] S4x128x1024.size inb_S4x128x1024_S4x128x1024_0_0_0

/-! ## What the body leaves in the output window's buffer -/

/-- Window 5's staging buffer after the body, as a function of the five input blocks: its single whole-buffer store,
    whose payload is the bias row (window 4) broadcast and added to the output projection of the attention of the
    block (windows 0 to 3). -/
def out0_5 (x0 : Vec F S4x128x1024 .f32) (x1 : Vec F S1024x3072 .bf16) (x2 : Vec F S1x3072 .f32) (x3 : Vec F S1024x1024 .bf16) (x4 : Vec F S1x1024 .f32) : Vec F S4x128x1024 .f32 :=
  View.canon [⟨r, k0_pay1 (k0_pay2 (View.ld x4 r4)) (k0_pay3 (View.ld x0 r0) (View.ld x1 r1) (View.ld x2 r2) (View.ld x3 r3))⟩]

/-- The one store's rectangle is the whole buffer, so it covers every index. -/
theorem cover0_5 (p0 : Vec F S4x128x1024 .f32) (y : S4x128x1024.Idx) :
    ∃ pc ∈ ([⟨r, p0⟩] : List (View.Piece (Elt F) S4x128x1024 .f32)), y ∈ pc.1.set :=
  View.cover_of_tiled [⟨r, p0⟩] S4x128x1024.size (by rfl) y

/-! ## The body's triple -/

set_option maxHeartbeats 1000000 in
/-- The kernel body on whole staging memrefs, the five inputs' at read contents `x0 … x4` and the output's at anything,
    runs to the continuation holding the inputs' as they were and the output's at `out0_5` of them. The load of the
    output buffer reads whatever it holds; the store that follows overwrites all of it. -/
theorem sound_kernel (c : Dev nD) (E : Set ℕ) (i : grid0.Coords)
    (arg1 : Memref sig .tc .vmem S4x128x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S4x128x1024 .f32) (harg6 : arg6.IsWhole)
    (x0 : Vec F S4x128x1024 .f32) (x1 : Vec F S1024x3072 .bf16) (x2 : Vec F S1x3072 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__attn_kernel i arg1 harg1 arg2 harg2 arg3 harg3 arg4 harg4 arg5 harg5 arg6 harg6) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at grid point `t`
    each input's buffer at its block and the output's at `out0_5` of the five input blocks; the invariant is the
    scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents, by projecting the definition (the fold over the host
    operations is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every grid point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic grid point -/

/-- What the body is called with at grid point `t`: the invariant, what the core owes, and each window's current
    staging buffer at what the pipeline put there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any grid point: the inputs' memrefs hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the proof data determines
    and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: @main runs to termination without fault, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.FrameIdeal.lean ====
/- The frame of `KernelIdeal`: @main is eleven host operations, one pipelined region over a grid of 32 points with six
   windows (five inputs, one output), and one host operation after it. This module states what every array holds when
   the region is entered, each window's block at a grid point, what the body leaves in the output window's buffer as a
   function of the five input blocks, the body's triple, the pipeline's proof data, and the run of @main from which the
   nine argument arrays are read back unchanged. -/
import proofs.«106226_j67637144978282_2_alg».proof.Proof.Gen.KernelIdeal.Launch
import proofs.«106226_j67637144978282_2_alg».proof.Proof.Gen.KernelIdeal.Skeleton
import proofs.«106226_j67637144978282_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle with extents 4 x 128 x 1024 is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch memory after the
    eleven host operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operation after it: it reduces to the
    region continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches only the pipeline's arrays and the buffers that bypass it: its buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes only its own result buffer, which is none of the six. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0` (each writes its own result buffer, a different one): the
    region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg0` is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1` (each writes its own result buffer, a different one): the
    region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg1` is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2` (each writes its own result buffer, a different one): the
    region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg2` is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3` (each writes its own result buffer, a different one): the
    region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg3` is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4` (each writes its own result buffer, a different one): the
    region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg4` is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5` (each writes its own result buffer, a different one): the
    region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg5` is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6` (each writes its own result buffer, a different one): the
    region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg6` is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7` (each writes its own result buffer, a different one): the
    region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg7` is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8` (each writes its own result buffer, a different one): the
    region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after the region, and `main_arg8` is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the window is fetched there
    or not (unfetched, its block index has not moved), for any proof data whose array is the region-entry contents
    (`hA`) and whose body leaves the block in place (`hafter`); the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether the window is fetched there
    or not (unfetched, its block index has not moved), for any proof data whose array is the region-entry contents
    (`hA`) and whose body leaves the block in place (`hafter`); the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every grid point, whether the window is fetched there
    or not (unfetched, its block index has not moved), for any proof data whose array is the region-entry contents
    (`hA`) and whose body leaves the block in place (`hafter`); the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every grid point, whether the window is fetched there
    or not (unfetched, its block index has not moved), for any proof data whose array is the region-entry contents
    (`hA`) and whose body leaves the block in place (`hafter`); the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every grid point, whether the window is fetched there
    or not (unfetched, its block index has not moved), for any proof data whose array is the region-entry contents
    (`hA`) and whose body leaves the block in place (`hafter`); the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the pipeline's frame post, read at
    the nine argument arrays — none is an array of the pipeline, so each ends as the operation after the region leaves
    it, which is as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body's accesses -/

/-- Each input buffer is loaded whole; the output buffer is loaded whole once (the value is not used) and then stored
    whole once. -/
abbrev r0 : Rect S4x128x1024 := Rect.unit (s := S4x128x1024) ![0, 0, 0] S4x128x1024.size inb_S4x128x1024_S4x128x1024_0_0_0
abbrev r1 : Rect S1024x3072 := Rect.unit (s := S1024x3072) ![0, 0] S1024x3072.size inb_S1024x3072_S1024x3072_0_0
abbrev r2 : Rect S1x3072 := Rect.unit (s := S1x3072) ![0, 0] S1x3072.size inb_S1x3072_S1x3072_0_0
abbrev r3 : Rect S1024x1024 := Rect.unit (s := S1024x1024) ![0, 0] S1024x1024.size inb_S1024x1024_S1024x1024_0_0
abbrev r4 : Rect S1x1024 := Rect.unit (s := S1x1024) ![0, 0] S1x1024.size inb_S1x1024_S1x1024_0_0
abbrev r : Rect S4x128x1024 := Rect.unit (s := S4x128x1024) ![0, 0, 0] S4x128x1024.size inb_S4x128x1024_S4x128x1024_0_0_0

/-! ## What the body leaves in the output window's buffer -/

/-- Window 5's staging buffer after the body, as a function of the five input blocks: its single whole-buffer store,
    whose payload is the bias row (window 4) broadcast and added to the output projection of the attention of the
    block (windows 0 to 3). -/
def out0_5 (x0 : Vec F S4x128x1024 .f32) (x1 : Vec F S1024x3072 .bf16) (x2 : Vec F S1x3072 .f32) (x3 : Vec F S1024x1024 .bf16) (x4 : Vec F S1x1024 .f32) : Vec F S4x128x1024 .f32 :=
  View.canon [⟨r, k0_pay1 (k0_pay2 (View.ld x4 r4)) (k0_pay3 (View.ld x0 r0) (View.ld x1 r1) (View.ld x2 r2) (View.ld x3 r3))⟩]

/-- The one store's rectangle is the whole buffer, so it covers every index. -/
theorem cover0_5 (p0 : Vec F S4x128x1024 .f32) (y : S4x128x1024.Idx) :
    ∃ pc ∈ ([⟨r, p0⟩] : List (View.Piece (Elt F) S4x128x1024 .f32)), y ∈ pc.1.set :=
  View.cover_of_tiled [⟨r, p0⟩] S4x128x1024.size (by rfl) y

/-! ## The body's triple -/

set_option maxHeartbeats 1000000 in
/-- The kernel body on whole staging memrefs, the five inputs' at read contents `x0 … x4` and the output's at anything,
    runs to the continuation holding the inputs' as they were and the output's at `out0_5` of them. The load of the
    output buffer reads whatever it holds; the store that follows overwrites all of it. -/
theorem sound_kernel (c : Dev nD) (E : Set ℕ) (i : grid0.Coords)
    (arg1 : Memref sig .tc .vmem S4x128x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S4x128x1024 .f32) (harg6 : arg6.IsWhole)
    (x0 : Vec F S4x128x1024 .f32) (x1 : Vec F S1024x3072 .bf16) (x2 : Vec F S1x3072 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__attn_kernel i arg1 harg1 arg2 harg2 arg3 harg3 arg4 harg4 arg5 harg5 arg6 harg6) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at grid point `t`
    each input's buffer at its block and the output's at `out0_5` of the five input blocks; the invariant is the
    scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents, by projecting the definition (the fold over the host
    operations is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every grid point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic grid point -/

/-- What the body is called with at grid point `t`: the invariant, what the core owes, and each window's current
    staging buffer at what the pipeline put there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any grid point: the inputs' memrefs hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the proof data determines
    and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: @main runs to termination without fault, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.AttnSpec.lean ====
/-
  Single-head self-attention of one sequence, on the extended reals, and the result array of the whole batch as ONE function
  of the nine argument arrays.

  For a sequence x : [S, D], weights given input axis first (w d e multiplies feature d into feature e) and biases b:
    lin x w b s e      = Σ_d x s d · w d e + b e                      (a linear layer)
    score q k s t      = (Σ_e q s e · k t e) · 2⁻⁵                     (2⁻⁵ = 1/√1024, as its float word)
    rowMax ℓ           = the fold of max from −∞ over the row ℓ
    softmax ℓ t        = exp (ℓ t − rowMax ℓ) / Σ_j exp (ℓ j − rowMax ℓ)  (the quotient of the extended reals)
    mix w v s e        = Σ_t w s t · v t e
    attn x …           = lin (mix (softmax ∘ score (lin x wq bq) (lin x wk bk)) (lin x wv bv)) wo bo.
  Every sum is a finite sum of the commutative monoid of extended reals, so no order or grouping of the terms matters;
  no distributive law is used anywhere, so nothing here needs its entries finite.

  The batch: the argument x : [128, 131072] is 128 sequences of 128 positions by 1024 features, position-major; the four
  weights W : [1024, 1024] are stored output feature first (y = x Wᵀ + b), so w d e = W (e, d).
-/
import Idealize.ShloMosaic.PureOps.Ideal
import Idealize.ShloMosaic.Lib.ValueIdx

noncomputable section

open scoped BigOperators

namespace Cert.Attn

open Idealize.ShloMosaic Idealize.ShloMosaic.ValueIdx

/-- The values: extended reals. -/
abbrev R : Type := Ideal .f32

/-- The float word of −∞. -/
abbrev negInf : R := Ideal.ofBits .f32 0xFF800000#32
/-- The float word of 2⁻⁵. -/
abbrev scale : R := Ideal.ofBits .f32 0x3D000000#32

variable {S D : ℕ}

/-- A linear layer, the weight given input axis first. -/
def lin (x : Fin S → Fin D → R) (w : Fin D → Fin D → R) (b : Fin D → R) (s : Fin S) (e : Fin D) : R :=
  (∑ d : Fin D, x s d * w d e) + b e

/-- The scaled inner products of the queries' rows with the keys' rows. -/
def score (q k : Fin S → Fin D → R) (s t : Fin S) : R := (∑ e : Fin D, q s e * k t e) * scale

/-- A row's maximum, folded from −∞. -/
def rowMax (ℓ : Fin S → R) : R := (Finset.univ : Finset (Fin S)).fold max negInf ℓ

/-- The softmax of a row. -/
def softmax (ℓ : Fin S → R) (t : Fin S) : R :=
  Ideal.div (Ideal.exp (ℓ t - rowMax ℓ)) (∑ j : Fin S, Ideal.exp (ℓ j - rowMax ℓ))

/-- The weighted mix of the values' rows. -/
def mix (w : Fin S → Fin S → R) (v : Fin S → Fin D → R) (s : Fin S) (e : Fin D) : R := ∑ t : Fin S, w s t * v t e

/-- Self-attention of one sequence followed by the output layer. -/
def attn (x : Fin S → Fin D → R) (wq wk wv wo : Fin D → Fin D → R) (bq bk bv bo : Fin D → R) : Fin S → Fin D → R :=
  lin (mix (fun s => softmax (score (lin x wq bq) (lin x wk bk) s)) (lin x wv bv)) wo bo

/-- Position s, feature d of a sequence stored position-major in a row of 128 · 1024 entries. -/
def flat (s : Fin 128) (d : Fin 1024) : Fin 131072 := ⟨s.val * 1024 + d.val, by have := s.isLt; have := d.isLt; omega⟩

/-- Entry (b, s, f) of the result, from the nine argument arrays: attention of sequence b. -/
def G3c (a0 : (⟨2, ![128, 131072]⟩ : Shape).Idx → R)
    (a1 : (⟨2, ![1024, 1024]⟩ : Shape).Idx → R) (a2 : (⟨1, ![1024]⟩ : Shape).Idx → R)
    (a3 : (⟨2, ![1024, 1024]⟩ : Shape).Idx → R) (a4 : (⟨1, ![1024]⟩ : Shape).Idx → R)
    (a5 : (⟨2, ![1024, 1024]⟩ : Shape).Idx → R) (a6 : (⟨1, ![1024]⟩ : Shape).Idx → R)
    (a7 : (⟨2, ![1024, 1024]⟩ : Shape).Idx → R) (a8 : (⟨1, ![1024]⟩ : Shape).Idx → R)
    (b : Fin 128) (s : Fin 128) (f : Fin 1024) : R :=
  attn (fun (p : Fin 128) (d : Fin 1024) => a0 (ix2 b (flat p d)))
    (fun d e => a1 (ix2 e d)) (fun d e => a3 (ix2 e d)) (fun d e => a5 (ix2 e d)) (fun e g => a7 (ix2 g e))
    (fun e => a2 (ix1 e)) (fun e => a4 (ix1 e)) (fun e => a6 (ix1 e)) (fun g => a8 (ix1 g)) s f

/-- The result as an array [128, 128, 1024]. -/
def G3 (a0 : (⟨2, ![128, 131072]⟩ : Shape).Idx → R)
    (a1 : (⟨2, ![1024, 1024]⟩ : Shape).Idx → R) (a2 : (⟨1, ![1024]⟩ : Shape).Idx → R)
    (a3 : (⟨2, ![1024, 1024]⟩ : Shape).Idx → R) (a4 : (⟨1, ![1024]⟩ : Shape).Idx → R)
    (a5 : (⟨2, ![1024, 1024]⟩ : Shape).Idx → R) (a6 : (⟨1, ![1024]⟩ : Shape).Idx → R)
    (a7 : (⟨2, ![1024, 1024]⟩ : Shape).Idx → R) (a8 : (⟨1, ![1024]⟩ : Shape).Idx → R) :
    (⟨3, ![128, 128, 1024]⟩ : Shape).Idx → R :=
  fun i => G3c a0 a1 a2 a3 a4 a5 a6 a7 a8 (i 0) (i 1) (i 2)

theorem G3_ix3 (a0 : (⟨2, ![128, 131072]⟩ : Shape).Idx → R)
    (a1 : (⟨2, ![1024, 1024]⟩ : Shape).Idx → R) (a2 : (⟨1, ![1024]⟩ : Shape).Idx → R)
    (a3 : (⟨2, ![1024, 1024]⟩ : Shape).Idx → R) (a4 : (⟨1, ![1024]⟩ : Shape).Idx → R)
    (a5 : (⟨2, ![1024, 1024]⟩ : Shape).Idx → R) (a6 : (⟨1, ![1024]⟩ : Shape).Idx → R)
    (a7 : (⟨2, ![1024, 1024]⟩ : Shape).Idx → R) (a8 : (⟨1, ![1024]⟩ : Shape).Idx → R)
    (b : Fin 128) (s : Fin 128) (f : Fin 1024) :
    G3 a0 a1 a2 a3 a4 a5 a6 a7 a8 (ix3 b s f) = G3c a0 a1 a2 a3 a4 a5 a6 a7 a8 b s f := rfl

/-- Two spellings of attention agree as soon as their pieces do: congruence, stage by stage. -/
theorem attn_congr {x x' : Fin S → Fin D → R} {wq wq' wk wk' wv wv' wo wo' : Fin D → Fin D → R} {bq bq' bk bk' bv bv' bo bo' : Fin D → R}
    (hx : x = x') (hq : wq = wq') (hk : wk = wk') (hv : wv = wv') (ho : wo = wo')
    (hbq : bq = bq') (hbk : bk = bk') (hbv : bv = bv') (hbo : bo = bo') :
    attn x wq wk wv wo bq bk bv bo = attn x' wq' wk' wv' wo' bq' bk' bv' bo' := by
  subst hx hq hk hv ho hbq hbk hbv hbo; rfl

end Cert.Attn

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibBatchDot.lean ====
/-
  Two batched matrix products read at an output index, at the ideal values.

  With one leading batch axis shared by both operands and the result:
  * rows by rows — the last axis of a [B, a, n] left operand contracted with the last axis of a [B, b, n] right operand into
    [B, a, b] — the entry (g, p, q) is Σ_k lhs (g, p, k) · rhs (g, q, k);
  * rows by columns — the last axis of a [B, a, n] left operand contracted with the middle axis of a [B, n, b] right operand
    into [B, a, b] — the entry (g, p, q) is Σ_k lhs (g, p, k) · rhs (g, k, q);
  both for the matrix unit accumulating into the zero splat. The facts about the dimension numbers that are not read off the
  contracted axis (which output coordinate each kept operand coordinate is) are hypotheses: a caller has them by unfolding its
  literal record.
-/
import Idealize.ShloMosaic.PureOps.Ideal.Laws
import Idealize.ShloMosaic.Lib.ValueIdx

noncomputable section

namespace Cert.BatchDot

open Idealize.ShloMosaic Idealize.ShloMosaic.ValueIdx

variable {B a n b : ℕ} {φ₁ φ₂ : FTy}

/-- Rows by rows within each batch, into the zero accumulator. -/
theorem matmul_rowrow (d : DotDims ⟨3, ![B, a, n]⟩ ⟨3, ![B, b, n]⟩ ⟨3, ![B, a, b]⟩)
    (hr : d.contr.rank = 1) (hs : d.contr.size ⟨0, by omega⟩ = n)
    (hcl : d.lhsContracting = [2]) (hcr : d.rhsContracting = [2])
    (hl0 : ∀ j q, (d.lhsIdx j q 0).val = (j 0).val) (hl1 : ∀ j q, (d.lhsIdx j q 1).val = (j 1).val)
    (hr0 : ∀ j q, (d.rhsIdx j q 0).val = (j 0).val) (hr1 : ∀ j q, (d.rhsIdx j q 1).val = (j 2).val)
    (prec : Option ContractPrecision) (lhs : FVec Ideal ⟨3, ![B, a, n]⟩ φ₁) (rhs : FVec Ideal ⟨3, ![B, b, n]⟩ φ₂)
    (j : (⟨3, ![B, a, b]⟩ : Shape).Idx) :
    matmul d prec lhs rhs (constant ⟨3, ![B, a, b]⟩ .f32 0x00000000#32) j
      = ∑ k : Fin n, lhs (ix3 (j 0) (j 1) k) * rhs (ix3 (j 0) (j 2) k) := by
  show FloatOps.matmul d prec lhs rhs (constant ⟨3, ![B, a, b]⟩ .f32 0x00000000#32) j = _
  rw [Ideal.matmul_constant_zero_apply, ← Equiv.sum_comp (contrEquiv1 d n hr hs).symm]
  refine Finset.sum_congr rfl fun k _ => ?_
  have el : d.lhsIdx j ((contrEquiv1 d n hr hs).symm k) = ix3 (j 0) (j 1) k := funext fun x => Fin.ext (by
    match x with
    | ⟨0, _⟩ => exact hl0 _ _
    | ⟨1, _⟩ => exact hl1 _ _
    | ⟨2, _⟩ => exact (d.lhsIdx_val_of_single hcl j _).trans (contrEquiv1_symm_val d n hr hs k))
  have er : d.rhsIdx j ((contrEquiv1 d n hr hs).symm k) = ix3 (j 0) (j 2) k := funext fun x => Fin.ext (by
    match x with
    | ⟨0, _⟩ => exact hr0 _ _
    | ⟨1, _⟩ => exact hr1 _ _
    | ⟨2, _⟩ => exact (d.rhsIdx_val_of_single hcr j _).trans (contrEquiv1_symm_val d n hr hs k))
  rw [el, er]
  all_goals rfl

/-- Rows by columns within each batch, into the zero accumulator. -/
theorem matmul_rowcol (d : DotDims ⟨3, ![B, a, n]⟩ ⟨3, ![B, n, b]⟩ ⟨3, ![B, a, b]⟩)
    (hr : d.contr.rank = 1) (hs : d.contr.size ⟨0, by omega⟩ = n)
    (hcl : d.lhsContracting = [2]) (hcr : d.rhsContracting = [1])
    (hl0 : ∀ j q, (d.lhsIdx j q 0).val = (j 0).val) (hl1 : ∀ j q, (d.lhsIdx j q 1).val = (j 1).val)
    (hr0 : ∀ j q, (d.rhsIdx j q 0).val = (j 0).val) (hr2 : ∀ j q, (d.rhsIdx j q 2).val = (j 2).val)
    (prec : Option ContractPrecision) (lhs : FVec Ideal ⟨3, ![B, a, n]⟩ φ₁) (rhs : FVec Ideal ⟨3, ![B, n, b]⟩ φ₂)
    (j : (⟨3, ![B, a, b]⟩ : Shape).Idx) :
    matmul d prec lhs rhs (constant ⟨3, ![B, a, b]⟩ .f32 0x00000000#32) j
      = ∑ k : Fin n, lhs (ix3 (j 0) (j 1) k) * rhs (ix3 (j 0) k (j 2)) := by
  show FloatOps.matmul d prec lhs rhs (constant ⟨3, ![B, a, b]⟩ .f32 0x00000000#32) j = _
  rw [Ideal.matmul_constant_zero_apply, ← Equiv.sum_comp (contrEquiv1 d n hr hs).symm]
  refine Finset.sum_congr rfl fun k _ => ?_
  have el : d.lhsIdx j ((contrEquiv1 d n hr hs).symm k) = ix3 (j 0) (j 1) k := funext fun x => Fin.ext (by
    match x with
    | ⟨0, _⟩ => exact hl0 _ _
    | ⟨1, _⟩ => exact hl1 _ _
    | ⟨2, _⟩ => exact (d.lhsIdx_val_of_single hcl j _).trans (contrEquiv1_symm_val d n hr hs k))
  have er : d.rhsIdx j ((contrEquiv1 d n hr hs).symm k) = ix3 (j 0) k (j 2) := funext fun x => Fin.ext (by
    match x with
    | ⟨0, _⟩ => exact hr0 _ _
    | ⟨1, _⟩ => exact (d.rhsIdx_val_of_single hcr j _).trans (contrEquiv1_symm_val d n hr hs k)
    | ⟨2, _⟩ => exact hr2 _ _)
  rw [el, er]
  all_goals rfl

end Cert.BatchDot

end
-- ==== Proof.LibLastAxisSoftmax.lean ====
/-
  The softmax along the last axis of a rank-3 array, as a kernel body spells it, read at an entry on the extended reals.

  For L : [a, b, n]: a lane maximum from −∞ over the last axis, cast to a column [a, b, 1] and repeated along the last
  axis, subtracted; exp; a lane sum from 0 over the last axis, cast and repeated the same way; the quotient. At (p, q, t) this
  is softmax of the row k ↦ L (p, q, k), at t. The pieces, each read at coordinates:
  * the lane maximum at (p, q) is the fold of max from −∞ over the row; the lane sum at (p, q) is the row's sum;
  * the cast [a, b] → [a, b, 1] at (p, q, 0) is the entry (p, q);
  * the repeat [a, b, 1] → [a, b, n] at (p, q, k) is the entry (p, q, 0).
-/
import proofs.«106226_j67637144978282_2_alg».proof.Proof.AttnSpec
import Idealize.ShloMosaic.PureOps.Ideal.Laws
import Idealize.ShloMosaic.Lib.ValueIdx
import Idealize.ShloMosaic.Lib.Pipeline.Value

noncomputable section

namespace Cert.LastAxis

open Idealize.ShloMosaic Idealize.ShloMosaic.ValueIdx

variable {a b n : ℕ}

/-- The reduced index (p, q) with the last coordinate k put back is (p, q, k). -/
theorem lift_last (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl

/-- The lane maximum from −∞ at (p, q): the row's maximum. -/
theorem laneMax_apply (L : FVec Ideal ⟨3, ![a, b, n]⟩ .f32) (h : (⟨3, ![a, b, n]⟩ : Shape).Reduces [2] ⟨2, ![a, b]⟩)
    (hφ : FKind.Formats .f32) (hacc : (0xFF800000#32 : BitVec 32) = FKind.maximumf.neutral .f32 hφ) (p : Fin a) (q : Fin b) :
    multiReduction .maximumf [2] ⟨2, ![a, b]⟩ L 0xFF800000#32 h hφ hacc (ix2 p q)
      = Cert.Attn.rowMax (fun k : Fin n => L (ix3 p q k)) := by
  rw [Ideal.multiReduction_maximumf_single]
  exact congrArg (fun f => (Finset.univ : Finset (Fin n)).fold max Cert.Attn.negInf f)
    (funext fun k => congrArg L (lift_last h p q k))

/-- The lane sum from 0 at (p, q): the row's sum. -/
theorem laneSum_apply (L : FVec Ideal ⟨3, ![a, b, n]⟩ .f32) (h : (⟨3, ![a, b, n]⟩ : Shape).Reduces [2] ⟨2, ![a, b]⟩)
    (hφ : FKind.Formats .f32) (hacc : (0x00000000#32 : BitVec 32) = FKind.add.neutral .f32 hφ) (p : Fin a) (q : Fin b) :
    multiReduction .add [2] ⟨2, ![a, b]⟩ L 0x00000000#32 h hφ hacc (ix2 p q) = ∑ k : Fin n, L (ix3 p q k) := by
  rw [Ideal.multiReduction_add_single]
  exact Finset.sum_congr rfl fun k _ => congrArg L (lift_last h p q k)

variable {α : Type}

/-- The cast of [a, b] to the column [a, b, 1], at (p, q, 0). -/
theorem cast_col_apply (v : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ v h (ix3 p q u) = v (ix2 p q) :=
  shapeCast_apply v h _ _ (by
    rw [Shape.rowMajor_val_two, Shape.rowMajor_val_three]
    show p.val * b + q.val = (p.val * b + q.val) * 1 + u.val
    have := u.isLt; omega)

/-- The column [a, b, 1] repeated along the last axis, at (p, q, k). -/
theorem repeat_col_apply (v : (⟨3, ![a, b, 1]⟩ : Shape).Idx → α) (h : (⟨3, ![a, b, 1]⟩ : Shape).Broadcasts ⟨3, ![a, b, n]⟩)
    (p : Fin a) (q : Fin b) (k : Fin n) : broadcastTo ⟨3, ![a, b, n]⟩ v h (ix3 p q k) = v (ix3 p q (0 : Fin 1)) :=
  broadcastTo_apply v h _ _ fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ =>
      show (0 : ℕ) = if (1 : ℕ) = 1 then 0 else k.val
      simp

/-- The body's spelling of the softmax along the last axis, at (p, q, t). -/
theorem softmax_apply (L : FVec Ideal ⟨3, ![a, b, n]⟩ .f32) (h : (⟨3, ![a, b, n]⟩ : Shape).Reduces [2] ⟨2, ![a, b]⟩)
    (hφ : FKind.Formats .f32) (hmaxacc : (0xFF800000#32 : BitVec 32) = FKind.maximumf.neutral .f32 hφ)
    (haddacc : (0x00000000#32 : BitVec 32) = FKind.add.neutral .f32 hφ)
    (hc : (⟨2, ![a, b]⟩ : Shape).ShapeCasts ⟨3, ![a, b, 1]⟩) (hb : (⟨3, ![a, b, 1]⟩ : Shape).Broadcasts ⟨3, ![a, b, n]⟩)
    (E : FVec Ideal ⟨3, ![a, b, n]⟩ .f32)
    (hE : E = exp (subf L (broadcastTo ⟨3, ![a, b, n]⟩
      (shapeCast ⟨3, ![a, b, 1]⟩ (multiReduction .maximumf [2] ⟨2, ![a, b]⟩ L 0xFF800000#32 h hφ hmaxacc) hc) hb)))
    (p : Fin a) (q : Fin b) (t : Fin n) :
    divf E (broadcastTo ⟨3, ![a, b, n]⟩
      (shapeCast ⟨3, ![a, b, 1]⟩ (multiReduction .add [2] ⟨2, ![a, b]⟩ E 0x00000000#32 h hφ haddacc) hc) hb) (ix3 p q t)
      = Cert.Attn.softmax (fun k : Fin n => L (ix3 p q k)) t := by
  have eE : ∀ j : Fin n, E (ix3 p q j)
      = Ideal.exp (L (ix3 p q j) - Cert.Attn.rowMax (fun k : Fin n => L (ix3 p q k))) := by
    intro j
    rw [hE]
    show Ideal.exp (L (ix3 p q j) - broadcastTo ⟨3, ![a, b, n]⟩
      (shapeCast ⟨3, ![a, b, 1]⟩ (multiReduction .maximumf [2] ⟨2, ![a, b]⟩ L 0xFF800000#32 h hφ hmaxacc) hc) hb (ix3 p q j)) = _
    rw [repeat_col_apply, cast_col_apply, laneMax_apply]
  show Ideal.div (E (ix3 p q t)) (broadcastTo ⟨3, ![a, b, n]⟩
      (shapeCast ⟨3, ![a, b, 1]⟩ (multiReduction .add [2] ⟨2, ![a, b]⟩ E 0x00000000#32 h hφ haddacc) hc) hb (ix3 p q t)) = _
  rw [repeat_col_apply, cast_col_apply, laneSum_apply, eE t]
  unfold Cert.Attn.softmax
  exact congrArg (Ideal.div _) (Finset.sum_congr rfl fun j _ => eE j)

end Cert.LastAxis

end
-- ==== Proof.KernelPayload.lean ====
/-
  The kernel body's one store, read at an entry of the output block: attention of the block's sequence.

  The body is handed a block x0 : [4, 128, 1024] of four sequences, the fused weight x1 : [1024, 3·1024] (the query, key and
  value weights side by side, input axis first), the fused bias x2 : [1, 3·1024], the output weight x3 : [1024, 1024] (input
  axis first) and the output bias x4 : [1, 1024]. It folds the four sequences into 512 rows, multiplies by the fused weight and
  adds the fused bias (stage qkv); cuts the result into its three thirds of 1024 columns and unfolds each back to four
  sequences (stage third); takes within each sequence the inner products of the query rows with the key rows, scaled by 2⁻⁵
  (stage scores); the softmax along the last axis (stage probs); the weighted mix of the value rows (stage mix); folds again,
  multiplies by the output weight (stage out), adds the output bias and unfolds. A change of float format is the identity on
  the extended reals. Entry (b, s, f) of what is stored is attn of sequence b of the block with the three thirds of x1 and x2
  as the query, key and value layers: every stage is read at an entry and the readings compose to the specification's terms,
  sum for sum; no law of arithmetic is used.
-/
import proofs.«106226_j67637144978282_2_alg».proof.Proof.Gen.KernelIdeal.Skeleton
import proofs.«106226_j67637144978282_2_alg».proof.Proof.AttnSpec
import proofs.«106226_j67637144978282_2_alg».proof.Proof.LibRowColDot
import proofs.«106226_j67637144978282_2_alg».proof.Proof.LibBatchDot
import proofs.«106226_j67637144978282_2_alg».proof.Proof.LibLastAxisSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Column e of the first, second, third block of 1024 columns among 3 · 1024. -/
def col0 (e : Fin 1024) : Fin 3072 := ⟨e.val, by have := e.isLt; omega⟩
def col1 (e : Fin 1024) : Fin 3072 := ⟨1024 + e.val, by have := e.isLt; omega⟩
def col2 (e : Fin 1024) : Fin 3072 := ⟨2048 + e.val, by have := e.isLt; omega⟩

/-- Row of position s of sequence b among the 4 · 128 folded rows. -/
def row (b : Fin 4) (s : Fin 128) : Fin 512 := ⟨b.val * 128 + s.val, by have := b.isLt; have := s.isLt; omega⟩

/-! ## The four products' dimension numbers -/

abbrev dA := dot_S512x1024_S1024x3072_S512x3072_1_0_0_1_n_n
abbrev dS := dot_S4x128x1024_S4x128x1024_S4x128x128_2_2_1_1_0_0
abbrev dM := dot_S4x128x128_S4x128x1024_S4x128x1024_2_1_1_2_0_0
abbrev dO := dot_S512x1024_S1024x1024_S512x1024_1_0_0_1_n_n

theorem dA_l0 (j : S512x3072.Idx) (q : dA.contr.Idx) : (dA.lhsIdx j q 0).val = (j 0).val := by
  unfold DotDims.lhsIdx
  rw [dif_neg (show ¬(0 : Fin S512x1024.rank) ∈ dA.lhsBatch by decide), dif_pos (show (0 : Fin S512x1024.rank) ∈ dA.lhsNonContracting by decide)]
  rfl
theorem dA_r1 (j : S512x3072.Idx) (q : dA.contr.Idx) : (dA.rhsIdx j q 1).val = (j 1).val := by
  unfold DotDims.rhsIdx
  rw [dif_neg (show ¬(1 : Fin S1024x3072.rank) ∈ dA.rhsBatch by decide), dif_pos (show (1 : Fin S1024x3072.rank) ∈ dA.rhsNonContracting by decide)]
  rfl
theorem dO_l0 (j : S512x1024.Idx) (q : dO.contr.Idx) : (dO.lhsIdx j q 0).val = (j 0).val := by
  unfold DotDims.lhsIdx
  rw [dif_neg (show ¬(0 : Fin S512x1024.rank) ∈ dO.lhsBatch by decide), dif_pos (show (0 : Fin S512x1024.rank) ∈ dO.lhsNonContracting by decide)]
  rfl
theorem dO_r1 (j : S512x1024.Idx) (q : dO.contr.Idx) : (dO.rhsIdx j q 1).val = (j 1).val := by
  unfold DotDims.rhsIdx
  rw [dif_neg (show ¬(1 : Fin S1024x1024.rank) ∈ dO.rhsBatch by decide), dif_pos (show (1 : Fin S1024x1024.rank) ∈ dO.rhsNonContracting by decide)]
  rfl
theorem dS_l0 (j : S4x128x128.Idx) (q : dS.contr.Idx) : (dS.lhsIdx j q 0).val = (j 0).val := by
  unfold DotDims.lhsIdx
  rw [dif_pos (show (0 : Fin S4x128x1024.rank) ∈ dS.lhsBatch by decide)]
  rfl
theorem dS_l1 (j : S4x128x128.Idx) (q : dS.contr.Idx) : (dS.lhsIdx j q 1).val = (j 1).val := by
  unfold DotDims.lhsIdx
  rw [dif_neg (show ¬(1 : Fin S4x128x1024.rank) ∈ dS.lhsBatch by decide), dif_pos (show (1 : Fin S4x128x1024.rank) ∈ dS.lhsNonContracting by decide)]
  rfl
theorem dS_r0 (j : S4x128x128.Idx) (q : dS.contr.Idx) : (dS.rhsIdx j q 0).val = (j 0).val := by
  unfold DotDims.rhsIdx
  rw [dif_pos (show (0 : Fin S4x128x1024.rank) ∈ dS.rhsBatch by decide)]
  rfl
theorem dS_r1 (j : S4x128x128.Idx) (q : dS.contr.Idx) : (dS.rhsIdx j q 1).val = (j 2).val := by
  unfold DotDims.rhsIdx
  rw [dif_neg (show ¬(1 : Fin S4x128x1024.rank) ∈ dS.rhsBatch by decide), dif_pos (show (1 : Fin S4x128x1024.rank) ∈ dS.rhsNonContracting by decide)]
  rfl
theorem dM_l0 (j : S4x128x1024.Idx) (q : dM.contr.Idx) : (dM.lhsIdx j q 0).val = (j 0).val := by
  unfold DotDims.lhsIdx
  rw [dif_pos (show (0 : Fin S4x128x128.rank) ∈ dM.lhsBatch by decide)]
  rfl
theorem dM_l1 (j : S4x128x1024.Idx) (q : dM.contr.Idx) : (dM.lhsIdx j q 1).val = (j 1).val := by
  unfold DotDims.lhsIdx
  rw [dif_neg (show ¬(1 : Fin S4x128x128.rank) ∈ dM.lhsBatch by decide), dif_pos (show (1 : Fin S4x128x128.rank) ∈ dM.lhsNonContracting by decide)]
  rfl
theorem dM_r0 (j : S4x128x1024.Idx) (q : dM.contr.Idx) : (dM.rhsIdx j q 0).val = (j 0).val := by
  unfold DotDims.rhsIdx
  rw [dif_pos (show (0 : Fin S4x128x1024.rank) ∈ dM.rhsBatch by decide)]
  rfl
theorem dM_r2 (j : S4x128x1024.Idx) (q : dM.contr.Idx) : (dM.rhsIdx j q 2).val = (j 2).val := by
  unfold DotDims.rhsIdx
  rw [dif_neg (show ¬(2 : Fin S4x128x1024.rank) ∈ dM.rhsBatch by decide), dif_pos (show (2 : Fin S4x128x1024.rank) ∈ dM.rhsNonContracting by decide)]
  rfl

/-! ## Folding four sequences into 512 rows and back -/

theorem fold_rows_apply {α : Type} (v : S4x128x1024.Idx → α) (h : S4x128x1024.ShapeCasts S512x1024)
    (b : Fin 4) (s : Fin 128) (e : Fin 1024) : shapeCast S512x1024 v h (ix2 (row b s) e) = v (ix3 b s e) :=
  shapeCast_apply v h _ _ (by
    rw [Shape.rowMajor_val_three, Shape.rowMajor_val_two]
    show (b.val * 128 + s.val) * 1024 + e.val = (b.val * 128 + s.val) * 1024 + e.val
    rfl)

theorem unfold_rows_apply {α : Type} (v : S512x1024.Idx → α) (h : S512x1024.ShapeCasts S4x128x1024)
    (b : Fin 4) (s : Fin 128) (e : Fin 1024) : shapeCast S4x128x1024 v h (ix3 b s e) = v (ix2 (row b s) e) :=
  shapeCast_apply v h _ _ (by
    rw [Shape.rowMajor_val_three, Shape.rowMajor_val_two]
    show (b.val * 128 + s.val) * 1024 + e.val = (b.val * 128 + s.val) * 1024 + e.val
    rfl)

/-! ## The stages -/

/-- The fused projection: the folded block times the fused weight, plus the fused bias. -/
def qkv (x0 : FVec Ideal S4x128x1024 .f32) (x1 : FVec Ideal S1024x3072 .bf16) (x2 : FVec Ideal S1x3072 .f32) : FVec Ideal S512x3072 .f32 :=
  addf (matmul dA none
      (shapeCast S512x1024 (truncf .bf16 (shapeCast S4x128x1024 x0 shapeCasts_S4x128x1024_S4x128x1024) bitsLt_bf16_f32) shapeCasts_S4x128x1024_S512x1024)
      (shapeCast S1024x3072 x1 shapeCasts_S1024x3072_S1024x3072) (constant S512x3072 .f32 0x00000000#32))
    (broadcastTo S512x3072 (shapeCast S1x3072 x2 shapeCasts_S1x3072_S1x3072) broadcasts_S1x3072_S512x3072)

theorem qkv_apply (x0 : FVec Ideal S4x128x1024 .f32) (x1 : FVec Ideal S1024x3072 .bf16) (x2 : FVec Ideal S1x3072 .f32)
    (b : Fin 4) (s : Fin 128) (c : Fin 3072) :
    qkv x0 x1 x2 (ix2 (row b s) c) = (∑ d : Fin 1024, x0 (ix3 b s d) * x1 (ix2 d c)) + x2 (ix2 (0 : Fin 1) c) := by
  unfold qkv
  rw [addf_apply, Cert.RowColDot.matmul_rowcol dA rfl rfl rfl rfl dA_l0 dA_r1, broadcastTo_1b_ab_apply, shapeCast_self x2,
    shapeCast_self x1, shapeCast_self x0]
  refine congrArg (· + x2 (ix2 (0 : Fin 1) c)) (Finset.sum_congr rfl fun d _ => ?_)
  show shapeCast S512x1024 (truncf .bf16 x0 bitsLt_bf16_f32) shapeCasts_S4x128x1024_S512x1024 (ix2 (row b s) d) * x1 (ix2 d c) = _
  rw [fold_rows_apply, truncf_apply]

/-- One third of the fused projection's columns, unfolded back to four sequences. -/
def third (o : ℕ) (h : S512x3072.Slices ![0, o] S512x1024) (A : FVec Ideal S512x3072 .f32) : FVec Ideal S4x128x1024 .bf16 :=
  shapeCast S4x128x1024 (truncf .bf16 (extractStridedSlice S512x1024 ![0, o] A h) bitsLt_bf16_f32) shapeCasts_S512x1024_S4x128x1024

theorem third_apply (o : ℕ) (h : S512x3072.Slices ![0, o] S512x1024) (A : FVec Ideal S512x3072 .f32)
    (b : Fin 4) (s : Fin 128) (e : Fin 1024) (k : Fin 3072) (hk : k.val = o + e.val) :
    third o h A (ix3 b s e) = A (ix2 (row b s) k) := by
  unfold third
  rw [unfold_rows_apply, truncf_apply]
  exact slice2_axis1_apply o A h (row b s) e k hk

/-- The scaled inner products of the query rows with the key rows, sequence by sequence. -/
def scoresV (Q K : FVec Ideal S4x128x1024 .bf16) : FVec Ideal S4x128x128 .f32 :=
  mulf (matmul dS none Q K (constant S4x128x128 .f32 0x00000000#32)) (broadcast S4x128x128 (Scalar.ofBits .f32 0x3D000000#32))

theorem scoresV_apply (Q K : FVec Ideal S4x128x1024 .bf16) (b : Fin 4) (s t : Fin 128) :
    scoresV Q K (ix3 b s t) = (∑ e : Fin 1024, Q (ix3 b s e) * K (ix3 b t e)) * Cert.Attn.scale := by
  unfold scoresV
  rw [mulf_apply, Cert.BatchDot.matmul_rowrow dS rfl rfl rfl rfl dS_l0 dS_l1 dS_r0 dS_r1]
  rfl

/-- The softmax along the last axis. -/
def probs (L : FVec Ideal S4x128x128 .f32) : FVec Ideal S4x128x128 .bf16 :=
  truncf .bf16
    (divf
      (exp (subf L (broadcastTo S4x128x128 (shapeCast S4x128x1 (multiReduction .maximumf [2] S4x128 L 0xFF800000#32 reduces_S4x128x128_S4x128 (.inl rfl) rfl) shapeCasts_S4x128_S4x128x1) broadcasts_S4x128x1_S4x128x128)))
      (broadcastTo S4x128x128 (shapeCast S4x128x1 (multiReduction .add [2] S4x128
        (exp (subf L (broadcastTo S4x128x128 (shapeCast S4x128x1 (multiReduction .maximumf [2] S4x128 L 0xFF800000#32 reduces_S4x128x128_S4x128 (.inl rfl) rfl) shapeCasts_S4x128_S4x128x1) broadcasts_S4x128x1_S4x128x128)))
        0x00000000#32 reduces_S4x128x128_S4x128 (.inl rfl) rfl) shapeCasts_S4x128_S4x128x1) broadcasts_S4x128x1_S4x128x128))
    bitsLt_bf16_f32

theorem probs_apply (L : FVec Ideal S4x128x128 .f32) (b : Fin 4) (s t : Fin 128) :
    probs L (ix3 b s t) = Cert.Attn.softmax (fun k : Fin 128 => L (ix3 b s k)) t := by
  unfold probs
  rw [truncf_apply]
  exact Cert.LastAxis.softmax_apply L reduces_S4x128x128_S4x128 (.inl rfl) rfl rfl shapeCasts_S4x128_S4x128x1 broadcasts_S4x128x1_S4x128x128 _ rfl b s t

/-- The weighted mix of the value rows, sequence by sequence. -/
def mixV (P : FVec Ideal S4x128x128 .bf16) (V : FVec Ideal S4x128x1024 .bf16) : FVec Ideal S4x128x1024 .f32 :=
  matmul dM none P V (constant S4x128x1024 .f32 0x00000000#32)

theorem mixV_apply (P : FVec Ideal S4x128x128 .bf16) (V : FVec Ideal S4x128x1024 .bf16) (b : Fin 4) (s : Fin 128) (e : Fin 1024) :
    mixV P V (ix3 b s e) = ∑ t : Fin 128, P (ix3 b s t) * V (ix3 b t e) := by
  unfold mixV
  rw [Cert.BatchDot.matmul_rowcol dM rfl rfl rfl rfl dM_l0 dM_l1 dM_r0 dM_r2]

/-- The output layer's product, on the folded rows. -/
def outV (At : FVec Ideal S4x128x1024 .f32) (x3 : FVec Ideal S1024x1024 .bf16) : FVec Ideal S512x1024 .f32 :=
  matmul dO none (shapeCast S512x1024 (truncf .bf16 At bitsLt_bf16_f32) shapeCasts_S4x128x1024_S512x1024)
    (shapeCast S1024x1024 x3 shapeCasts_S1024x1024_S1024x1024) (constant S512x1024 .f32 0x00000000#32)

theorem outV_apply (At : FVec Ideal S4x128x1024 .f32) (x3 : FVec Ideal S1024x1024 .bf16) (b : Fin 4) (s : Fin 128) (f : Fin 1024) :
    outV At x3 (ix2 (row b s) f) = ∑ e : Fin 1024, At (ix3 b s e) * x3 (ix2 e f) := by
  unfold outV
  rw [Cert.RowColDot.matmul_rowcol dO rfl rfl rfl rfl dO_l0 dO_r1, shapeCast_self x3]
  refine Finset.sum_congr rfl fun e _ => ?_
  show shapeCast S512x1024 (truncf .bf16 At bitsLt_bf16_f32) shapeCasts_S4x128x1024_S512x1024 (ix2 (row b s) e) * x3 (ix2 e f) = _
  rw [fold_rows_apply, truncf_apply]

/-! ## The payload is the composition of the stages -/

theorem pay3_eq (x0 : Vec Ideal S4x128x1024 .f32) (x1 : Vec Ideal S1024x3072 .bf16) (x2 : Vec Ideal S1x3072 .f32)
    (x3 : Vec Ideal S1024x1024 .bf16) :
    k0_pay3 (F := Ideal) x0 x1 x2 x3
      = outV (mixV (probs (scoresV (third 0 slices_S512x3072_o0_0_S512x1024 (qkv x0 x1 x2))
            (third 1024 slices_S512x3072_o0_1024_S512x1024 (qkv x0 x1 x2))))
          (third 2048 slices_S512x3072_o0_2048_S512x1024 (qkv x0 x1 x2))) x3 := rfl

theorem pay1_apply (x4 : Vec Ideal S1x1024 .f32) (O : FVec Ideal S512x1024 .f32) (b : Fin 4) (s : Fin 128) (f : Fin 1024) :
    k0_pay1 (F := Ideal) (k0_pay2 x4) O (ix3 b s f) = O (ix2 (row b s) f) + x4 (ix2 (0 : Fin 1) f) := by
  unfold k0_pay1 k0_pay2
  show shapeCast S4x128x1024 (addf O (broadcastTo S512x1024 (shapeCast S1x1024 x4 shapeCasts_S1x1024_S1x1024) broadcasts_S1x1024_S512x1024)) shapeCasts_S512x1024_S4x128x1024 (ix3 b s f) = _
  rw [unfold_rows_apply, addf_apply, broadcastTo_1b_ab_apply, shapeCast_self x4]

/-- Entry (b, s, f) of the body's store. -/
theorem payload_entry (x0 : Vec Ideal S4x128x1024 .f32) (x1 : Vec Ideal S1024x3072 .bf16) (x2 : Vec Ideal S1x3072 .f32)
    (x3 : Vec Ideal S1024x1024 .bf16) (x4 : Vec Ideal S1x1024 .f32) (b : Fin 4) (s : Fin 128) (f : Fin 1024) :
    k0_pay1 (F := Ideal) (k0_pay2 x4) (k0_pay3 x0 x1 x2 x3) (ix3 b s f)
      = Cert.Attn.attn (fun (p : Fin 128) (d : Fin 1024) => x0 (ix3 b p d))
          (fun d e => x1 (ix2 d (col0 e))) (fun d e => x1 (ix2 d (col1 e))) (fun d e => x1 (ix2 d (col2 e)))
          (fun e g => x3 (ix2 e g))
          (fun e => x2 (ix2 (0 : Fin 1) (col0 e))) (fun e => x2 (ix2 (0 : Fin 1) (col1 e))) (fun e => x2 (ix2 (0 : Fin 1) (col2 e)))
          (fun g => x4 (ix2 (0 : Fin 1) g)) s f := by
  rw [pay3_eq, pay1_apply, outV_apply]
  unfold Cert.Attn.attn
  show _ = (∑ e : Fin 1024, Cert.Attn.mix _ _ s e * x3 (ix2 e f)) + x4 (ix2 (0 : Fin 1) f)
  refine congrArg (· + x4 (ix2 (0 : Fin 1) f)) (Finset.sum_congr rfl fun e _ => congrArg (· * x3 (ix2 e f)) ?_)
  rw [mixV_apply]
  unfold Cert.Attn.mix
  refine Finset.sum_congr rfl fun t _ => ?_
  rw [probs_apply, third_apply 2048 _ _ b t e (col2 e) rfl, qkv_apply]
  refine congrArg (· * _) (congrArg (fun ℓ => Cert.Attn.softmax ℓ t) (funext fun k => ?_))
  rw [scoresV_apply]
  unfold Cert.Attn.score
  refine congrArg (· * Cert.Attn.scale) (Finset.sum_congr rfl fun g _ => ?_)
  rw [third_apply 0 _ _ b s g (col0 g) (by show g.val = 0 + g.val; omega), third_apply 1024 _ _ b k g (col1 g) rfl, qkv_apply, qkv_apply]
  rfl

end Cert.KernelIdeal.Payload

end
-- ==== Proof.KernelValue.lean ====
/- The kernel's value at the extended reals, from the pipeline's proof data to the whole result array.

   The region's six windows: window 0 and window 5 are blocks of four sequences [4, 128, 1024] of the arrays [128, 128, 1024]
   (the first argument regrouped, and the result), advancing one block per grid point over 32 points; windows 1 to 4 are
   whole arrays the host operations before the region prepared: the three input weights transposed and laid side by side
   [1024, 3 · 1024], the three input biases end to end as a row [1, 3 · 1024], the output weight transposed [1024, 1024]
   and the output bias as a row [1, 1024]. This module reads those five arrays entry by entry off the nine arguments,
   reads each input block off its array, shows that what a grid point writes back is the block of ONE function of the
   arguments — attention of each sequence of the batch, Cert.Attn.G3 — and, the 32 blocks covering the result array,
   that the array ends holding that function. -/
import proofs.«106226_j67637144978282_2_alg».proof.Proof.FrameIdeal
import proofs.«106226_j67637144978282_2_alg».proof.Proof.KernelPayload
import proofs.«106226_j67637144978282_2_alg».proof.Proof.AttnSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them -/

/-- Window 0's array: the first argument, its rows of 128 · 1024 entries split into 128 positions of 1024 features. -/
theorem V_v0 (c : Dev nD) : (V m c main_v0 : Vec Ideal S128x128x1024 .f32)
    = shapeCast S128x128x1024 (m ((c : Thread nD τ).loc main_arg0)) shapeCasts_S128x131072_S128x128x1024 := by
  show StableHlo.after hostOps0 (fun b => m (c, b)) (Proc.devRef .tc main_v0) = _
  after_results
  all_goals rfl

/-- Window 1's array: the query, key and value weights, each transposed, side by side along the columns. -/
theorem V_v5 (c : Dev nD) : @Eq (FVec Ideal S1024x3072 .bf16) (V m c main_v5)
    (truncf .bf16 ((concatenate S1024x3072 1 [⟨S1024x1024, (transpose S1024x1024 [1, 0] (m ((c : Thread nD τ).loc main_arg1)) transposes_S1024x1024_S1024x1024_1_0)⟩, ⟨S1024x1024, (transpose S1024x1024 [1, 0] (m ((c : Thread nD τ).loc main_arg3)) transposes_S1024x1024_S1024x1024_1_0)⟩, ⟨S1024x1024, (transpose S1024x1024 [1, 0] (m ((c : Thread nD τ).loc main_arg5)) transposes_S1024x1024_S1024x1024_1_0)⟩] concatenates_S1024x1024_S1024x1024_S1024x1024_S1024x3072_d1) : FVec Ideal S1024x3072 .f32) bitsLt_bf16_f32) := by
  show StableHlo.after hostOps0 (fun b => m (c, b)) (Proc.devRef .tc main_v5) = _
  after_results
  all_goals rfl

/-- Window 2's array: the query, key and value biases end to end, as one row. -/
theorem V_v7 (c : Dev nD) : (V m c main_v7 : Vec Ideal S1x3072 .f32)
    = shapeCast S1x3072 ((concatenate S3072 0 [⟨S1024, (m ((c : Thread nD τ).loc main_arg2))⟩, ⟨S1024, (m ((c : Thread nD τ).loc main_arg4))⟩, ⟨S1024, (m ((c : Thread nD τ).loc main_arg6))⟩] concatenates_S1024_S1024_S1024_S3072_d0) : Vec Ideal S3072 .f32) shapeCasts_S3072_S1x3072 := by
  show StableHlo.after hostOps0 (fun b => m (c, b)) (Proc.devRef .tc main_v7) = _
  after_results
  all_goals rfl

/-- Window 3's array: the output weight transposed. -/
theorem V_v9 (c : Dev nD) : @Eq (FVec Ideal S1024x1024 .bf16) (V m c main_v9)
    (truncf .bf16 ((transpose S1024x1024 [1, 0] (m ((c : Thread nD τ).loc main_arg7)) transposes_S1024x1024_S1024x1024_1_0) : FVec Ideal S1024x1024 .f32) bitsLt_bf16_f32) := by
  show StableHlo.after hostOps0 (fun b => m (c, b)) (Proc.devRef .tc main_v9) = _
  after_results
  all_goals rfl

/-- Window 4's array: the output bias as one row. -/
theorem V_v10 (c : Dev nD) : (V m c main_v10 : Vec Ideal S1x1024 .f32)
    = shapeCast S1x1024 (m ((c : Thread nD τ).loc main_arg8)) shapeCasts_S1024_S1x1024 := by
  show StableHlo.after hostOps0 (fun b => m (c, b)) (Proc.devRef .tc main_v10) = _
  after_results
  all_goals rfl

/-! ## Those arrays read at coordinates -/

/-- A row of 128 · 1024 entries split into positions and features: entry (g, p, d) is entry (g, p · 1024 + d) of the rows. -/
theorem split_rows_apply (x : Vec Ideal S128x131072 .f32) (g : Fin 128) (p : Fin 128) (d : Fin 1024) :
    shapeCast S128x128x1024 x shapeCasts_S128x131072_S128x128x1024 (ix3 g p d) = x (ix2 g (Cert.Attn.flat p d)) := by
  refine shapeCast_apply x _ (ix3 g p d) (ix2 g (Cert.Attn.flat p d)) ?_
  rw [Shape.rowMajor_val_two, Shape.rowMajor_val_three]
  show g.val * 131072 + (p.val * 1024 + d.val) = (g.val * 128 + p.val) * 1024 + d.val
  omega

/-- Three square matrices side by side along the columns: column e of the K-th third is column e of the K-th matrix. -/
theorem fused_w_col0 (w0 w1 w2 : Vec Ideal S1024x1024 .f32) (d e : Fin 1024) :
    (concatenate S1024x3072 1 [⟨S1024x1024, w0⟩, ⟨S1024x1024, w1⟩, ⟨S1024x1024, w2⟩] concatenates_S1024x1024_S1024x1024_S1024x1024_S1024x3072_d1) (ix2 d (col0 e)) = w0 (ix2 d e) := by
  refine concatenate_apply_piece _ _ _ (ix2 d (col0 e)) 0 (by show 0 < 3; omega) S1024x1024 w0 rfl rfl 0 (by rfl) (ix2 d e) ?_ ?_
  · intro b hb
    match b with
    | ⟨0, _⟩ => rfl
    | ⟨1, _⟩ => exact absurd rfl hb
  · show 0 + e.val = (col0 e).val
    unfold col0; dsimp only; try omega

theorem fused_w_col1 (w0 w1 w2 : Vec Ideal S1024x1024 .f32) (d e : Fin 1024) :
    (concatenate S1024x3072 1 [⟨S1024x1024, w0⟩, ⟨S1024x1024, w1⟩, ⟨S1024x1024, w2⟩] concatenates_S1024x1024_S1024x1024_S1024x1024_S1024x3072_d1) (ix2 d (col1 e)) = w1 (ix2 d e) := by
  refine concatenate_apply_piece _ _ _ (ix2 d (col1 e)) 1 (by show 1 < 3; omega) S1024x1024 w1 rfl rfl 1024 (by rfl) (ix2 d e) ?_ ?_
  · intro b hb
    match b with
    | ⟨0, _⟩ => rfl
    | ⟨1, _⟩ => exact absurd rfl hb
  · show 1024 + e.val = (col1 e).val
    unfold col1; dsimp only; try omega

theorem fused_w_col2 (w0 w1 w2 : Vec Ideal S1024x1024 .f32) (d e : Fin 1024) :
    (concatenate S1024x3072 1 [⟨S1024x1024, w0⟩, ⟨S1024x1024, w1⟩, ⟨S1024x1024, w2⟩] concatenates_S1024x1024_S1024x1024_S1024x1024_S1024x3072_d1) (ix2 d (col2 e)) = w2 (ix2 d e) := by
  refine concatenate_apply_piece _ _ _ (ix2 d (col2 e)) 2 (by show 2 < 3; omega) S1024x1024 w2 rfl rfl 2048 (by rfl) (ix2 d e) ?_ ?_
  · intro b hb
    match b with
    | ⟨0, _⟩ => rfl
    | ⟨1, _⟩ => exact absurd rfl hb
  · show 2048 + e.val = (col2 e).val
    unfold col2; dsimp only; try omega

/-- Three vectors end to end: entry e of the K-th third is entry e of the K-th vector. -/
theorem fused_b_col0 (b0 b1 b2 : Vec Ideal S1024 .f32) (e : Fin 1024) :
    (concatenate S3072 0 [⟨S1024, b0⟩, ⟨S1024, b1⟩, ⟨S1024, b2⟩] concatenates_S1024_S1024_S1024_S3072_d0) (ix1 (col0 e)) = b0 (ix1 e) := by
  refine concatenate_apply_piece _ _ _ (ix1 (col0 e)) 0 (by show 0 < 3; omega) S1024 b0 rfl rfl 0 (by rfl) (ix1 e) ?_ ?_
  · intro b hb
    match b with
    | ⟨0, _⟩ => exact absurd rfl hb
  · show 0 + e.val = (col0 e).val
    unfold col0; dsimp only; try omega

theorem fused_b_col1 (b0 b1 b2 : Vec Ideal S1024 .f32) (e : Fin 1024) :
    (concatenate S3072 0 [⟨S1024, b0⟩, ⟨S1024, b1⟩, ⟨S1024, b2⟩] concatenates_S1024_S1024_S1024_S3072_d0) (ix1 (col1 e)) = b1 (ix1 e) := by
  refine concatenate_apply_piece _ _ _ (ix1 (col1 e)) 1 (by show 1 < 3; omega) S1024 b1 rfl rfl 1024 (by rfl) (ix1 e) ?_ ?_
  · intro b hb
    match b with
    | ⟨0, _⟩ => exact absurd rfl hb
  · show 1024 + e.val = (col1 e).val
    unfold col1; dsimp only; try omega

theorem fused_b_col2 (b0 b1 b2 : Vec Ideal S1024 .f32) (e : Fin 1024) :
    (concatenate S3072 0 [⟨S1024, b0⟩, ⟨S1024, b1⟩, ⟨S1024, b2⟩] concatenates_S1024_S1024_S1024_S3072_d0) (ix1 (col2 e)) = b2 (ix1 e) := by
  refine concatenate_apply_piece _ _ _ (ix1 (col2 e)) 2 (by show 2 < 3; omega) S1024 b2 rfl rfl 2048 (by rfl) (ix1 e) ?_ ?_
  · intro b hb
    match b with
    | ⟨0, _⟩ => exact absurd rfl hb
  · show 2048 + e.val = (col2 e).val
    unfold col2; dsimp only; try omega

/-- A vector of 3072 entries as one row. -/
theorem row3072_apply (x : Vec Ideal S3072 .f32) (k : Fin 3072) :
    shapeCast S1x3072 x shapeCasts_S3072_S1x3072 (ix2 (0 : Fin 1) k) = x (ix1 k) := by
  refine shapeCast_apply x _ (ix2 (0 : Fin 1) k) (ix1 k) ?_
  rw [Shape.rowMajor_val_one, Shape.rowMajor_val_two]
  show k.val = 0 * 3072 + k.val
  omega

/-- A vector of 1024 entries as one row. -/
theorem row1024_apply (x : Vec Ideal S1024 .f32) (k : Fin 1024) :
    shapeCast S1x1024 x shapeCasts_S1024_S1x1024 (ix2 (0 : Fin 1) k) = x (ix1 k) := by
  refine shapeCast_apply x _ (ix2 (0 : Fin 1) k) (ix1 k) ?_
  rw [Shape.rowMajor_val_one, Shape.rowMajor_val_two]
  show k.val = 0 * 1024 + k.val
  omega

/-- Window 0's array at (g, p, d) is the first argument at row g, entry p · 1024 + d. -/
theorem v0_apply (c : Dev nD) (g : Fin 128) (p : Fin 128) (d : Fin 1024) :
    (V m c main_v0 : Vec Ideal S128x128x1024 .f32) (ix3 g p d) = (m ((c : Thread nD τ).loc main_arg0)) (ix2 g (Cert.Attn.flat p d)) := by
  rw [V_v0]; exact split_rows_apply _ g p d

/-- Window 1's array at row d, column e of the K-th third is the K-th weight at (e, d). -/
theorem v5_col0 (c : Dev nD) (d e : Fin 1024) : (V m c main_v5 : Vec Ideal S1024x3072 .bf16) (ix2 d (col0 e)) = (m ((c : Thread nD τ).loc main_arg1)) (ix2 e d) := by
  rw [V_v5]; exact (fused_w_col0 _ _ _ d e).trans (transpose_ix2_apply _ _ d e)
theorem v5_col1 (c : Dev nD) (d e : Fin 1024) : (V m c main_v5 : Vec Ideal S1024x3072 .bf16) (ix2 d (col1 e)) = (m ((c : Thread nD τ).loc main_arg3)) (ix2 e d) := by
  rw [V_v5]; exact (fused_w_col1 _ _ _ d e).trans (transpose_ix2_apply _ _ d e)
theorem v5_col2 (c : Dev nD) (d e : Fin 1024) : (V m c main_v5 : Vec Ideal S1024x3072 .bf16) (ix2 d (col2 e)) = (m ((c : Thread nD τ).loc main_arg5)) (ix2 e d) := by
  rw [V_v5]; exact (fused_w_col2 _ _ _ d e).trans (transpose_ix2_apply _ _ d e)

/-- Window 2's one row at entry e of the K-th third is the K-th bias at e. -/
theorem v7_col0 (c : Dev nD) (e : Fin 1024) : (V m c main_v7 : Vec Ideal S1x3072 .f32) (ix2 (0 : Fin 1) (col0 e)) = (m ((c : Thread nD τ).loc main_arg2)) (ix1 e) := by
  rw [V_v7]; exact (row3072_apply _ _).trans (fused_b_col0 _ _ _ e)
theorem v7_col1 (c : Dev nD) (e : Fin 1024) : (V m c main_v7 : Vec Ideal S1x3072 .f32) (ix2 (0 : Fin 1) (col1 e)) = (m ((c : Thread nD τ).loc main_arg4)) (ix1 e) := by
  rw [V_v7]; exact (row3072_apply _ _).trans (fused_b_col1 _ _ _ e)
theorem v7_col2 (c : Dev nD) (e : Fin 1024) : (V m c main_v7 : Vec Ideal S1x3072 .f32) (ix2 (0 : Fin 1) (col2 e)) = (m ((c : Thread nD τ).loc main_arg6)) (ix1 e) := by
  rw [V_v7]; exact (row3072_apply _ _).trans (fused_b_col2 _ _ _ e)

/-- Window 3's array at (e, g) is the output weight at (g, e). -/
theorem v9_apply (c : Dev nD) (e g : Fin 1024) : (V m c main_v9 : Vec Ideal S1024x1024 .bf16) (ix2 e g) = (m ((c : Thread nD τ).loc main_arg7)) (ix2 g e) := by
  rw [V_v9]; exact transpose_ix2_apply _ _ e g

/-- Window 4's one row at g is the output bias at g. -/
theorem v10_apply (c : Dev nD) (g : Fin 1024) : (V m c main_v10 : Vec Ideal S1x1024 .f32) (ix2 (0 : Fin 1) g) = (m ((c : Thread nD τ).loc main_arg8)) (ix1 g) := by
  rw [V_v10]; exact row1024_apply _ g

/-! ## The grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the 32 grid points: windows 0 and 5 advance one block of four sequences along the batch
    axis at every point; windows 1 to 4 stay on their whole arrays. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks as reads of the region-entry arrays -/

/-- Entry (b, p, d) of window 0's block at grid point t is entry (4t + b, p, d) of its array. -/
theorem iblk0_apply (c : Dev nD) (t : Fin cfg0.N) (b : Fin 4) (p : Fin 128) (d : Fin 1024) (hg : 4 * t.val + b.val < 128) :
    (iblk m c 0 t : Vec Ideal S4x128x1024 .f32) (ix3 b p d)
      = (V m c main_v0 : Vec Ideal S128x128x1024 .f32) (ix3 (⟨4 * t.val + b.val, hg⟩ : Fin 128) p d) := by
  obtain ⟨e00, e01, e02, -⟩ := idx_facts t
  unfold iblk
  rw [View.read_apply]
  show (V m c main_v0 : Vec Ideal S128x128x1024 .f32) (((cfg0.win 0).blk t).view.emb (ix3 b p d)) = _
  refine congrArg _ ?_
  funext a; apply Fin.ext
  match a with
  | ⟨0, _⟩ => show win0_0.index t (0 : Fin 3) * 4 + 1 * b.val = 4 * t.val + b.val; rw [e00]; omega
  | ⟨1, _⟩ => show win0_0.index t (1 : Fin 3) * 128 + 1 * p.val = p.val; rw [e01]; omega
  | ⟨2, _⟩ => show win0_0.index t (2 : Fin 3) * 1024 + 1 * d.val = d.val; rw [e02]; omega

/-- Windows 1 to 4 hold whole arrays: their block at every grid point is the array. -/
theorem iblk1_eq (c : Dev nD) (t : Fin cfg0.N) : @Eq (Vec Ideal S1024x3072 .bf16) (iblk m c 1 t) (V m c main_v5) := by
  have hi : win0_1.index t (0 : Fin 2) = 0 ∧ win0_1.index t (1 : Fin 2) = 0 := by
    obtain ⟨-, -, -, -, -, -, e10, e11, e20, e21, e30, e31, e40, e41⟩ := idx_facts t
    exact ⟨e10, e11⟩
  funext y
  unfold iblk
  rw [View.read_apply]
  show (V m c main_v5 : Vec Ideal S1024x3072 .bf16) (((cfg0.win 1).blk t).view.emb y) = (V m c main_v5 : Vec Ideal S1024x3072 .bf16) y
  refine congrArg _ ?_
  funext a; apply Fin.ext
  match a with
  | ⟨0, _⟩ => show win0_1.index t (0 : Fin 2) * 1024 + 1 * (y 0).val = (y 0).val; rw [hi.1]; omega
  | ⟨1, _⟩ => show win0_1.index t (1 : Fin 2) * 3072 + 1 * (y 1).val = (y 1).val; rw [hi.2]; omega

theorem iblk2_eq (c : Dev nD) (t : Fin cfg0.N) : @Eq (Vec Ideal S1x3072 .f32) (iblk m c 2 t) (V m c main_v7) := by
  have hi : win0_2.index t (0 : Fin 2) = 0 ∧ win0_2.index t (1 : Fin 2) = 0 := by
    obtain ⟨-, -, -, -, -, -, e10, e11, e20, e21, e30, e31, e40, e41⟩ := idx_facts t
    exact ⟨e20, e21⟩
  funext y
  unfold iblk
  rw [View.read_apply]
  show (V m c main_v7 : Vec Ideal S1x3072 .f32) (((cfg0.win 2).blk t).view.emb y) = (V m c main_v7 : Vec Ideal S1x3072 .f32) y
  refine congrArg _ ?_
  funext a; apply Fin.ext
  match a with
  | ⟨0, _⟩ => show win0_2.index t (0 : Fin 2) * 1 + 1 * (y 0).val = (y 0).val; rw [hi.1]; omega
  | ⟨1, _⟩ => show win0_2.index t (1 : Fin 2) * 3072 + 1 * (y 1).val = (y 1).val; rw [hi.2]; omega

theorem iblk3_eq (c : Dev nD) (t : Fin cfg0.N) : @Eq (Vec Ideal S1024x1024 .bf16) (iblk m c 3 t) (V m c main_v9) := by
  have hi : win0_3.index t (0 : Fin 2) = 0 ∧ win0_3.index t (1 : Fin 2) = 0 := by
    obtain ⟨-, -, -, -, -, -, e10, e11, e20, e21, e30, e31, e40, e41⟩ := idx_facts t
    exact ⟨e30, e31⟩
  funext y
  unfold iblk
  rw [View.read_apply]
  show (V m c main_v9 : Vec Ideal S1024x1024 .bf16) (((cfg0.win 3).blk t).view.emb y) = (V m c main_v9 : Vec Ideal S1024x1024 .bf16) y
  refine congrArg _ ?_
  funext a; apply Fin.ext
  match a with
  | ⟨0, _⟩ => show win0_3.index t (0 : Fin 2) * 1024 + 1 * (y 0).val = (y 0).val; rw [hi.1]; omega
  | ⟨1, _⟩ => show win0_3.index t (1 : Fin 2) * 1024 + 1 * (y 1).val = (y 1).val; rw [hi.2]; omega

theorem iblk4_eq (c : Dev nD) (t : Fin cfg0.N) : @Eq (Vec Ideal S1x1024 .f32) (iblk m c 4 t) (V m c main_v10) := by
  have hi : win0_4.index t (0 : Fin 2) = 0 ∧ win0_4.index t (1 : Fin 2) = 0 := by
    obtain ⟨-, -, -, -, -, -, e10, e11, e20, e21, e30, e31, e40, e41⟩ := idx_facts t
    exact ⟨e40, e41⟩
  funext y
  unfold iblk
  rw [View.read_apply]
  show (V m c main_v10 : Vec Ideal S1x1024 .f32) (((cfg0.win 4).blk t).view.emb y) = (V m c main_v10 : Vec Ideal S1x1024 .f32) y
  refine congrArg _ ?_
  funext a; apply Fin.ext
  match a with
  | ⟨0, _⟩ => show win0_4.index t (0 : Fin 2) * 1 + 1 * (y 0).val = (y 0).val; rw [hi.1]; omega
  | ⟨1, _⟩ => show win0_4.index t (1 : Fin 2) * 1024 + 1 * (y 1).val = (y 1).val; rw [hi.2]; omega

/-! ## What a grid point writes back -/

/-- The body's one store at entry (b, s, f), over any five input blocks: the whole-buffer rectangles read and write the
    buffers as they are, and the payload at that entry is attention of the block's sequence b. -/
theorem out_entry (x0 : Vec Ideal S4x128x1024 .f32) (x1 : Vec Ideal S1024x3072 .bf16) (x2 : Vec Ideal S1x3072 .f32)
    (x3 : Vec Ideal S1024x1024 .bf16) (x4 : Vec Ideal S1x1024 .f32) (b : Fin 4) (s : Fin 128) (f : Fin 1024) :
    out0_5 x0 x1 x2 x3 x4 (ix3 b s f)
      = Cert.Attn.attn (fun (p : Fin 128) (d : Fin 1024) => x0 (ix3 b p d))
          (fun d e => x1 (ix2 d (col0 e))) (fun d e => x1 (ix2 d (col1 e))) (fun d e => x1 (ix2 d (col2 e)))
          (fun e g => x3 (ix2 e g))
          (fun e => x2 (ix2 (0 : Fin 1) (col0 e))) (fun e => x2 (ix2 (0 : Fin 1) (col1 e))) (fun e => x2 (ix2 (0 : Fin 1) (col2 e)))
          (fun g => x4 (ix2 (0 : Fin 1) g)) s f := by
  unfold out0_5
  rw [View.canon_unit_zero hz3]
  simp only [View.ld_unit_zero (S := S4x128x1024) hz3, View.ld_unit_zero (S := S1024x3072) hz2, View.ld_unit_zero (S := S1x3072) hz2,
    View.ld_unit_zero (S := S1024x1024) hz2, View.ld_unit_zero (S := S1x1024) hz2]
  exact payload_entry x0 x1 x2 x3 x4 b s f

/-- What grid point t writes back is block t of the result array as one function of the nine argument arrays. -/
theorem flushed_eq (c : Dev nD) (t : Fin cfg0.N) :
    (dats m 0 c).flushed 5 t = ((cfg0.win 5).blk t).view.read (Elt Ideal) (Cert.Attn.G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have ht : t.val < 32 := lt_of_lt_of_eq t.isLt (N_0 : cfg0.N = 32)
  obtain ⟨-, -, -, e50, e51, e52, -⟩ := idx_facts t
  show (cfg0.win 5).cut (grid0.coords t) ((dats m 0 c).after 5 t) = _
  rw [after0_5]
  funext j
  obtain ⟨b, s, f, rfl⟩ : ∃ (b : Fin 4) (s : Fin 128) (f : Fin 1024), j = ix3 b s f := ⟨j 0, j 1, j 2, eq_ix3 j⟩
  have hg : 4 * t.val + b.val < 128 := by have := b.isLt; omega
  have hemb : ((cfg0.win 5).blk t).view.emb (ix3 b s f) = ix3 (⟨4 * t.val + b.val, hg⟩ : Fin 128) s f := by
    funext a; apply Fin.ext
    match a with
    | ⟨0, _⟩ => show win0_5.index t (0 : Fin 3) * 4 + 1 * b.val = 4 * t.val + b.val; rw [e50]; omega
    | ⟨1, _⟩ => show win0_5.index t (1 : Fin 3) * 128 + 1 * s.val = s.val; rw [e51]; omega
    | ⟨2, _⟩ => show win0_5.index t (2 : Fin 3) * 1024 + 1 * f.val = f.val; rw [e52]; omega
  show out0_5 (iblk m c 0 t) (iblk m c 1 t) (iblk m c 2 t) (iblk m c 3 t) (iblk m c 4 t) (ix3 b s f)
    = (Cert.Attn.G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 5).blk t).view.emb (ix3 b s f))
  refine ((out_entry _ _ _ _ _ b s f).trans ?_).trans (congrArg (Cert.Attn.G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) hemb).symm
  show _ = Cert.Attn.G3c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨4 * t.val + b.val, hg⟩ : Fin 128) s f
  unfold Cert.Attn.G3c
  refine congrFun (congrFun (Cert.Attn.attn_congr ?_ ?_ ?_ ?_ ?_ ?_ ?_ ?_ ?_) s) f
  · funext p d; exact (iblk0_apply m c t b p d hg).trans (v0_apply m c _ p d)
  · funext d e; exact (congrFun (iblk1_eq m c t) _).trans (v5_col0 m c d e)
  · funext d e; exact (congrFun (iblk1_eq m c t) _).trans (v5_col1 m c d e)
  · funext d e; exact (congrFun (iblk1_eq m c t) _).trans (v5_col2 m c d e)
  · funext e g; exact (congrFun (iblk3_eq m c t) _).trans (v9_apply m c e g)
  · funext e; exact (congrFun (iblk2_eq m c t) _).trans (v7_col0 m c e)
  · funext e; exact (congrFun (iblk2_eq m c t) _).trans (v7_col1 m c e)
  · funext e; exact (congrFun (iblk2_eq m c t) _).trans (v7_col2 m c e)
  · funext g; exact (congrFun (iblk4_eq m c t) _).trans (v10_apply m c g)

/-! ## The array after the run -/

/-- An index of the result array is in grid point t's block iff each coordinate is in the block's range on its axis. -/
theorem mem_blk (t : Fin cfg0.N) (i : S128x128x1024.Idx) :
    i ∈ ((cfg0.win 5).blk t).view.set ↔ ∀ a : Fin 3, win0_5.index t a * S4x128x1024.size a ≤ (i a).val ∧ (i a).val < win0_5.index t a * S4x128x1024.size a + S4x128x1024.size a := by
  show i ∈ ((View.whole main_v11).slice (win0_5.rect t)).set ↔ _
  rw [View.set_slice_whole, Rect.mem_set_unit]
  exact Iff.rfl

/-- Every index of the result array is in some grid point's block: sequence g is written at point g / 4. -/
theorem cover (i : S128x128x1024.Idx) : ∃ t : Fin cfg0.N, (cfg0.win 5).flush t = true ∧ i ∈ ((cfg0.win 5).blk t).view.set := by
  have hi0 : (i 0).val < 128 := (i 0).isLt
  have hi1 : (i 1).val < 128 := (i 1).isLt
  have hi2 : (i 2).val < 1024 := (i 2).isLt
  have hN : cfg0.N = 32 := N_0
  obtain ⟨t, htv⟩ : ∃ t : Fin cfg0.N, t.val = (i 0).val / 4 := ⟨⟨(i 0).val / 4, by rw [hN]; omega⟩, rfl⟩
  obtain ⟨-, -, -, e50, e51, e52, -⟩ := idx_facts t
  refine ⟨t, flush0_5 t, ?_⟩
  rw [mem_blk]
  intro a
  match a with
  | ⟨0, _⟩ => show win0_5.index t (0 : Fin 3) * 4 ≤ (i 0).val ∧ (i 0).val < win0_5.index t (0 : Fin 3) * 4 + 4; rw [e50, htv]; omega
  | ⟨1, _⟩ => show win0_5.index t (1 : Fin 3) * 128 ≤ (i 1).val ∧ (i 1).val < win0_5.index t (1 : Fin 3) * 128 + 128; rw [e51]; omega
  | ⟨2, _⟩ => show win0_5.index t (2 : Fin 3) * 1024 ≤ (i 2).val ∧ (i 2).val < win0_5.index t (2 : Fin 3) * 1024 + 1024; rw [e52]; omega

/-- The result array after the run is attention of every sequence of the batch: one function of the nine argument arrays. -/
theorem final (c : Dev nD) : (dats (F := Ideal) m 0 c).arrAt 5 cfg0.N = (Cert.Attn.G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (dats m 0 c).arrAt_eq_of_cover 5 (Cert.Attn.G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

end Cert.KernelIdeal.Hand

end
-- ==== Proof.KernelRun.lean ====
/-
  The kernel's run read at @main's result.

  @main is host operations, one pipelined region, and one operation after it: a reshape of the region's output array
  [128, 128, 1024] into the result [128, 131072]. The frame run's post says every array of the pipeline ends as the
  proof data determines and every other unscoped buffer as the operation after the region leaves it. Two steps follow:
    the operation after the region   it reads the output array where the region left it and writes only the result
                                     buffer, so the result is that array cast row-major;
    the run                          the result buffer and the nine arguments are unscoped and are no window's array,
                                     so the frame post's second clause reads each of them; the arguments end as launched.
  Both are stated for ANY contents `G` of the output array after the last grid point, under the hypothesis that the
  proof data's array there is `G`; the last theorem closes them with the array's value, attention of the nine launched
  arguments.
-/
import proofs.«106226_j67637144978282_2_alg».proof.Proof.FrameIdeal
import proofs.«106226_j67637144978282_2_alg».proof.Proof.KernelValue
import proofs.«106226_j67637144978282_2_alg».proof.Proof.AttnSpec
import Idealize.ShloMosaic.Lib.Pipeline.Value
import Idealize.ShloMosaic.Lib.ValueIdx
import Idealize.ShloMosaic.Lib.StableHlo.Run

noncomputable section

namespace Cert.KernelIdeal.HandRun

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable (m : (ℓ : Loc nD τ sig) → Buf (Elt Ideal) ℓ) (ρ : Dev nD → PrngReg)

/-! ## The operation after the region -/

/-- The one operation after the region reshapes the output window's array into @main's result: whatever the region
    leaves in that array (`G`), the result buffer ends as `G` cast row-major to [128, 131072]. The operation reads the
    array where the region left it — the array is one of the pipeline's, so its contents there are the proof data's
    array after the last grid point — and writes only its own result buffer. -/
theorem tail_value (c : Dev nD) (G : (⟨S128x128x1024, .f32⟩ : BufTy).Contents (Elt Ideal))
    (hfinal : (Hand.dats (F := Ideal) m 0 c).arrAt 5 cfg0.N = G) :
    Pipeline.afterTail₀ cfgs (Hand.dats m) 0 (Hand.V0 m) [hostOps1] c main_v12
      = shapeCast S128x131072 G shapeCasts_S128x128x1024_S128x131072 := by
  unfold Pipeline.afterTail₀
  show StableHlo.after hostOps1 _ (Proc.devRef .tc main_v12) = _
  after_results
  have e := (Pipeline.withArrays_arr spec0 launch0.win.arr_inj c (Hand.V0 m c)
    (fun w => (Hand.dats (F := Ideal) m 0 c).arrAt w cfg0.N) 5).trans hfinal
  rw [e]
  rfl

/-! ## The run, read at the result and the arguments -/

/-- For any values, from any memory with zero counters: every weakly fair execution of @main terminates, and in every
    final state the result buffer holds the cast of what the region leaves in the output window's array (`G c` on
    core `c`), and the nine argument arrays are as launched. The result buffer and the arguments are unscoped and are
    no window's array, so each ends as the operation after the region leaves it. -/
theorem run_value_of (G : (c : Dev nD) → (⟨S128x128x1024, .f32⟩ : BufTy).Contents (Elt Ideal))
    (hfinal : ∀ c, (Hand.dats (F := Ideal) m 0 c).arrAt 5 cfg0.N = G c) :
    θ_run (defs (F := Ideal)) (onTc (τ := τ) (main (F := Ideal))) ⟨m, fun _ => 0, ρ⟩ (fun r => ∀ c : Dev nD,
      r.2.mem ((c.tc : Thread nD τ).loc main_v12) = shapeCast S128x131072 (G c) shapeCasts_S128x128x1024_S128x131072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v12 (Pipeline.mem_restRefs_of main_v12 (by decide) (by decide))).trans (tail_value m c (G c) (hfinal c)),
      ((h c).2 main_arg0 (Pipeline.mem_restRefs_of main_arg0 (by decide) (by decide))).trans (W_main_arg0 m (Hand.dats m) c),
      ((h c).2 main_arg1 (Pipeline.mem_restRefs_of main_arg1 (by decide) (by decide))).trans (W_main_arg1 m (Hand.dats m) c),
      ((h c).2 main_arg2 (Pipeline.mem_restRefs_of main_arg2 (by decide) (by decide))).trans (W_main_arg2 m (Hand.dats m) c),
      ((h c).2 main_arg3 (Pipeline.mem_restRefs_of main_arg3 (by decide) (by decide))).trans (W_main_arg3 m (Hand.dats m) c),
      ((h c).2 main_arg4 (Pipeline.mem_restRefs_of main_arg4 (by decide) (by decide))).trans (W_main_arg4 m (Hand.dats m) c),
      ((h c).2 main_arg5 (Pipeline.mem_restRefs_of main_arg5 (by decide) (by decide))).trans (W_main_arg5 m (Hand.dats m) c),
      ((h c).2 main_arg6 (Pipeline.mem_restRefs_of main_arg6 (by decide) (by decide))).trans (W_main_arg6 m (Hand.dats m) c),
      ((h c).2 main_arg7 (Pipeline.mem_restRefs_of main_arg7 (by decide) (by decide))).trans (W_main_arg7 m (Hand.dats m) c),
      ((h c).2 main_arg8 (Pipeline.mem_restRefs_of main_arg8 (by decide) (by decide))).trans (W_main_arg8 m (Hand.dats m) c)⟩)
    (Hand.run_main (F := Ideal) m ρ)

/-- The kernel's run, closed: the output window's array ends as attention of the nine launched argument arrays on every
    core, so the result buffer ends as its cast to [128, 131072], and the arguments are as launched. -/
theorem run_value :
    θ_run (defs (F := Ideal)) (onTc (τ := τ) (main (F := Ideal))) ⟨m, fun _ => 0, ρ⟩ (fun r => ∀ c : Dev nD,
      r.2.mem ((c.tc : Thread nD τ).loc main_v12)
        = shapeCast S128x131072 (Cert.Attn.G3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S128x128x1024_S128x131072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value_of m ρ (fun c => (Cert.Attn.G3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (fun c => Hand.final m c)

end Cert.KernelIdeal.HandRun

end
-- ==== Proof.RefAttn.lean ====
/-
  The reference program computes single-head self-attention of each of the 128 sequences followed by the output layer:
  read at an entry (b, s, f), on the extended reals, its result before the final reshape is the specification's entry
  G3c … b s f, so as an array [128, 128, 1024] it is G3.

  Stage by stage, each at explicit coordinates:
    the three input layers   a contraction over the feature axis of the reshaped argument with a weight stored output
                             feature first, plus a bias broadcast along the batch and position axes; the reshape reads
                             (b, s, d) at row b, place s · 1024 + d;
    the scores               a batched contraction over the feature axis, divided by √1024 = 32, which on the extended
                             reals is the product with 2⁻⁵ (both numbers as their float words);
    the row maximum          the fold of max from −∞ over the row; a further max with −∞ changes nothing;
    the softmax              the exponentials of the scores less the row maximum, divided by their row sum (the sum
                             starts from the zero word, which is 0);
    the mix                  a batched contraction over the positions;
    the output layer         as the input layers, with the fourth weight and bias.
  Every sum is a finite sum of extended reals indexed by the contracted axis's coordinate; no sum is reordered.
-/
import proofs.«106226_j67637144978282_2_alg».proof.Proof.Gen.ReferenceIdeal.Read
import proofs.«106226_j67637144978282_2_alg».proof.Proof.AttnSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-! ## The two literal words -/

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3D000000 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]; exact Real.sqrt_sq (by norm_num)
  rw [h]

/-- Dividing by the square root of the word of 1024 is multiplying by the word of 2⁻⁵. -/
theorem div_sqrt_1024 (a : EReal) :
    Ideal.div a (Ideal.sqrt (Ideal.ofBits .f32 0x44800000#32)) = a * Ideal.ofBits .f32 0x3D000000#32 := by
  rw [ofBits_1024, sqrt_1024, ofBits_inv32]
  exact Ideal.div_coe (by norm_num) a

/-! ## The index functions at coordinates -/

/-- The reshape reads sequence b's row at the position-major place of (s, d). -/
theorem idx_v0_ix3 (b s : Fin 128) (d : Fin 1024) : idx_main_v0 (ix3 b s d) = ix2 b (flat s d) := by
  have hb := b.isLt; have hs := s.isLt; have hd := d.isLt
  funext a
  match a with
  | ⟨0, _⟩ => exact Fin.ext (by show ((b.val * 128 + s.val) * 1024 + d.val) / 131072 = b.val; omega)
  | ⟨1, _⟩ => exact Fin.ext (by show ((b.val * 128 + s.val) * 1024 + d.val) % 131072 = s.val * 1024 + d.val; omega)

theorem lidx_v1_ix3 (b s : Fin 128) (e k : Fin 1024) : lidx_main_v1 (ix3 b s e) k = ix3 b s k := by
  funext a; match a with | ⟨0, _⟩ => rfl | ⟨1, _⟩ => rfl | ⟨2, _⟩ => rfl
theorem ridx_v1_ix3 (b s : Fin 128) (e k : Fin 1024) : ridx_main_v1 (ix3 b s e) k = ix2 e k := by
  funext a; match a with | ⟨0, _⟩ => rfl | ⟨1, _⟩ => rfl
theorem lidx_v5_ix3 (b s : Fin 128) (e k : Fin 1024) : lidx_main_v5 (ix3 b s e) k = ix3 b s k := by
  funext a; match a with | ⟨0, _⟩ => rfl | ⟨1, _⟩ => rfl | ⟨2, _⟩ => rfl
theorem ridx_v5_ix3 (b s : Fin 128) (e k : Fin 1024) : ridx_main_v5 (ix3 b s e) k = ix2 e k := by
  funext a; match a with | ⟨0, _⟩ => rfl | ⟨1, _⟩ => rfl
theorem lidx_v9_ix3 (b s : Fin 128) (e k : Fin 1024) : lidx_main_v9 (ix3 b s e) k = ix3 b s k := by
  funext a; match a with | ⟨0, _⟩ => rfl | ⟨1, _⟩ => rfl | ⟨2, _⟩ => rfl
theorem ridx_v9_ix3 (b s : Fin 128) (e k : Fin 1024) : ridx_main_v9 (ix3 b s e) k = ix2 e k := by
  funext a; match a with | ⟨0, _⟩ => rfl | ⟨1, _⟩ => rfl
theorem lidx_v29_ix3 (b s : Fin 128) (e k : Fin 1024) : lidx_main_v29 (ix3 b s e) k = ix3 b s k := by
  funext a; match a with | ⟨0, _⟩ => rfl | ⟨1, _⟩ => rfl | ⟨2, _⟩ => rfl
theorem ridx_v29_ix3 (b s : Fin 128) (e k : Fin 1024) : ridx_main_v29 (ix3 b s e) k = ix2 e k := by
  funext a; match a with | ⟨0, _⟩ => rfl | ⟨1, _⟩ => rfl
theorem bias_v3_ix3 (b s : Fin 128) (e : Fin 1024) : idx_main_v2 (idx_main_v3 (ix3 b s e)) = ix1 e := by
  funext a; match a with | ⟨0, _⟩ => rfl
theorem bias_v7_ix3 (b s : Fin 128) (e : Fin 1024) : idx_main_v6 (idx_main_v7 (ix3 b s e)) = ix1 e := by
  funext a; match a with | ⟨0, _⟩ => rfl
theorem bias_v11_ix3 (b s : Fin 128) (e : Fin 1024) : idx_main_v10 (idx_main_v11 (ix3 b s e)) = ix1 e := by
  funext a; match a with | ⟨0, _⟩ => rfl
theorem bias_v31_ix3 (b s : Fin 128) (e : Fin 1024) : idx_main_v30 (idx_main_v31 (ix3 b s e)) = ix1 e := by
  funext a; match a with | ⟨0, _⟩ => rfl

/-! ## The three input layers -/

/-- The queries: sequence b's linear layer with the first weight and bias. -/
theorem v4_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (b s : Fin 128) (e : Fin 1024) :
    val_main_v4 (F := Ideal) x0 x1 x2 (ix3 b s e)
      = lin (fun (p : Fin 128) (d : Fin 1024) => x0 (ix2 b (flat p d))) (fun d e => x1 (ix2 e d)) (fun e => x2 (ix1 e)) s e := by
  rw [val_main_v4_apply, val_main_v1_apply, val_main_v3_apply, val_main_v2_apply, Ideal.addf_def, bias_v3_ix3]
  unfold lin
  refine congrArg (· + x2 (ix1 e)) (Finset.sum_congr rfl fun k _ => ?_)
  rw [val_main_v0_apply, lidx_v1_ix3, idx_v0_ix3, ridx_v1_ix3]

/-- The keys: the same layer with the second weight and bias. -/
theorem v8_at (x0 : (⟨S128x131072, .f32⟩ : BufTy).Contents (Elt Ideal)) (x3 : (⟨S1024x1024, .f32⟩ : BufTy).Contents (Elt Ideal)) (x4 : (⟨S1024, .f32⟩ : BufTy).Contents (Elt Ideal)) (b s : Fin 128) (e : Fin 1024) :
    val_main_v8 (F := Ideal) x0 x3 x4 (ix3 b s e)
      = lin (fun (p : Fin 128) (d : Fin 1024) => x0 (ix2 b (flat p d))) (fun d e => x3 (ix2 e d)) (fun e => x4 (ix1 e)) s e := by
  rw [val_main_v8_apply, val_main_v5_apply, val_main_v7_apply, val_main_v6_apply, Ideal.addf_def, bias_v7_ix3]
  unfold lin
  refine congrArg (· + x4 (ix1 e)) (Finset.sum_congr rfl fun k _ => ?_)
  rw [val_main_v0_apply, lidx_v5_ix3, idx_v0_ix3, ridx_v5_ix3]

/-- The values: the same layer with the third weight and bias. -/
theorem v12_at (x0 : (⟨S128x131072, .f32⟩ : BufTy).Contents (Elt Ideal)) (x5 : (⟨S1024x1024, .f32⟩ : BufTy).Contents (Elt Ideal)) (x6 : (⟨S1024, .f32⟩ : BufTy).Contents (Elt Ideal)) (b s : Fin 128) (e : Fin 1024) :
    val_main_v12 (F := Ideal) x0 x5 x6 (ix3 b s e)
      = lin (fun (p : Fin 128) (d : Fin 1024) => x0 (ix2 b (flat p d))) (fun d e => x5 (ix2 e d)) (fun e => x6 (ix1 e)) s e := by
  rw [val_main_v12_apply, val_main_v9_apply, val_main_v11_apply, val_main_v10_apply, Ideal.addf_def, bias_v11_ix3]
  unfold lin
  refine congrArg (· + x6 (ix1 e)) (Finset.sum_congr rfl fun k _ => ?_)
  rw [val_main_v0_apply, lidx_v9_ix3, idx_v0_ix3, ridx_v9_ix3]

/-! ## The scores -/

theorem lidx_v13_ix3 (b s t : Fin 128) (k : Fin 1024) : lidx_main_v13 (ix3 b s t) k = ix3 b s k := by
  funext a; match a with | ⟨0, _⟩ => rfl | ⟨1, _⟩ => rfl | ⟨2, _⟩ => rfl
theorem ridx_v13_ix3 (b s t : Fin 128) (k : Fin 1024) : ridx_main_v13 (ix3 b s t) k = ix3 b t k := by
  funext a; match a with | ⟨0, _⟩ => rfl | ⟨1, _⟩ => rfl | ⟨2, _⟩ => rfl

/-- The scaled inner product of query row s with key row t: the division by √1024 is the product with 2⁻⁵. -/
theorem v16_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b s t : Fin 128) :
    val_main_v16 (F := Ideal) x0 x1 x2 x3 x4 (ix3 b s t) = score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s t := by
  rw [val_main_v16_apply, val_main_v13_apply, val_main_v15_apply, val_main_v14_apply, val_main_cst_apply,
    Ideal.hostDivf_def, Ideal.hostUnary_sqrt_def, Ideal.ofBits_def, div_sqrt_1024]
  unfold score
  refine congrArg (· * scale) (Finset.sum_congr rfl fun k _ => ?_)
  rw [lidx_v13_ix3, ridx_v13_ix3, v4_at, v8_at]

/-! ## The row maximum -/

/-- The reduced index (b, s) with coordinate k put back on the last axis is (b, s, k). -/
theorem lift_ix2 (h : S128x128x128.Reduces [2] S128x128) (b s : Fin 128) (k : Fin (S128x128x128.size 2)) :
    h.lift (ix2 b s) k = ix3 b s (⟨k.val, k.isLt⟩ : Fin 128) := by
  funext c; apply Fin.ext
  fin_cases c <;> rfl

/-- The max reduce at (b, s): the fold of max from −∞ over the row of scores. -/
theorem v17_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b s : Fin 128) :
    val_main_v17 (F := Ideal) x0 x1 x2 x3 x4 (ix2 b s) = rowMax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s) := by
  have h : S128x128x128.Reduces [2] S128x128 := by decide
  unfold val_main_v17
  rw [Host.reduce_eq_fold_single FloatOps.maximumf _ _ reducesTo_S128x128x128_S128x128_d2 h h_S_]
  have hf : (val_main_v16 (F := Ideal) x0 x1 x2 x3 x4 ∘ h.lift (ix2 b s)) = fun t : Fin 128 => (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s) t :=
    funext fun k => (congrArg (val_main_v16 (F := Ideal) x0 x1 x2 x3 x4) (lift_ix2 h b s k)).trans (v16_at x0 x1 x2 x3 x4 b s _)
  rw [hf]
  rfl

/-- The maximum of −∞ with the reduce is the reduce. -/
theorem v19_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b s : Fin 128) :
    val_main_v19 (F := Ideal) x0 x1 x2 x3 x4 (ix2 b s) = rowMax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s) := by
  rw [val_main_v19_apply, val_main_v18_apply, val_main_cst_1_apply, Ideal.ofBits_def, Ideal.maximumf_def, v17_at]
  exact max_eq_right ((Finset.le_fold_max _).2 (Or.inl le_rfl))

/-! ## The softmax -/

theorem idx_v20_v21_ix3 (b s t : Fin 128) : idx_main_v20 (idx_main_v21 (ix3 b s t)) = ix2 b s := by
  funext a; match a with | ⟨0, _⟩ => rfl | ⟨1, _⟩ => rfl
theorem idx_v25_v26_ix3 (b s t : Fin 128) : idx_main_v25 (idx_main_v26 (ix3 b s t)) = ix2 b s := by
  funext a; match a with | ⟨0, _⟩ => rfl | ⟨1, _⟩ => rfl
theorem idx_v24_ix2 (b s k : Fin 128) : idx_main_v24 (ix2 b s) k = ix3 b s k := by
  funext a; match a with | ⟨0, _⟩ => rfl | ⟨1, _⟩ => rfl | ⟨2, _⟩ => rfl

/-- The exponential of a score less its row's maximum. -/
theorem v23_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b s t : Fin 128) :
    val_main_v23 (F := Ideal) x0 x1 x2 x3 x4 (ix3 b s t) = Ideal.exp ((score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s) t - rowMax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s)) := by
  rw [val_main_v23_apply, val_main_v22_apply, val_main_v21_apply, val_main_v20_apply, Ideal.hostUnary_exp_def,
    Ideal.subf_def, idx_v20_v21_ix3, v19_at, v16_at]

/-- The row's sum of those exponentials; the reduce starts from the zero word. -/
theorem v24_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b s : Fin 128) :
    val_main_v24 (F := Ideal) x0 x1 x2 x3 x4 (ix2 b s) = ∑ j : Fin 128, Ideal.exp ((score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s) j - rowMax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s)) := by
  rw [val_main_v24_apply, val_main_cst_2_apply, Ideal.ofBits_def, Ideal.ofBits_zero_f32, zero_add]
  refine Finset.sum_congr rfl fun k _ => ?_
  rw [idx_v24_ix2, v23_at]

/-- The softmax weight of position t in row s. -/
theorem v27_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b s t : Fin 128) :
    val_main_v27 (F := Ideal) x0 x1 x2 x3 x4 (ix3 b s t) = softmax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s) t := by
  rw [val_main_v27_apply, val_main_v26_apply, val_main_v25_apply, Ideal.hostDivf_def, idx_v25_v26_ix3, v24_at, v23_at]
  rfl

/-! ## The mix and the output layer -/

theorem lidx_v28_ix3 (b s : Fin 128) (e : Fin 1024) (k : Fin 128) : lidx_main_v28 (ix3 b s e) k = ix3 b s k := by
  funext a; match a with | ⟨0, _⟩ => rfl | ⟨1, _⟩ => rfl | ⟨2, _⟩ => rfl
theorem ridx_v28_ix3 (b s : Fin 128) (e : Fin 1024) (k : Fin 128) : ridx_main_v28 (ix3 b s e) k = ix3 b k e := by
  funext a; match a with | ⟨0, _⟩ => rfl | ⟨1, _⟩ => rfl | ⟨2, _⟩ => rfl

/-- The weighted mix of the value rows. -/
theorem v28_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b s : Fin 128) (e : Fin 1024) :
    val_main_v28 (F := Ideal) x0 x1 x2 x3 x4 x5 x6 (ix3 b s e)
      = mix (fun s => softmax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s)) (lin (fun (p : Fin 128) (d : Fin 1024) => x0 (ix2 b (flat p d))) (fun d e => x5 (ix2 e d)) (fun e => x6 (ix1 e))) s e := by
  rw [val_main_v28_apply]
  unfold mix
  refine Finset.sum_congr rfl fun k _ => ?_
  rw [lidx_v28_ix3, ridx_v28_ix3, v27_at, v12_at]

/-- The output layer with the fourth weight and bias. -/
theorem v32_at (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (b s : Fin 128) (f : Fin 1024) :
    val_main_v32 (F := Ideal) x0 x1 x2 x3 x4 x5 x6 x7 x8 (ix3 b s f)
      = lin (mix (fun s => softmax (score (lin (fun (p : Fin 128) (d : Fin 1024) => x0 (ix2 b (flat p d))) (fun d e => x1 (ix2 e d)) (fun e => x2 (ix1 e))) (lin (fun (p : Fin 128) (d : Fin 1024) => x0 (ix2 b (flat p d))) (fun d e => x3 (ix2 e d)) (fun e => x4 (ix1 e))) s)) (lin (fun (p : Fin 128) (d : Fin 1024) => x0 (ix2 b (flat p d))) (fun d e => x5 (ix2 e d)) (fun e => x6 (ix1 e)))) (fun e g => x7 (ix2 g e)) (fun g => x8 (ix1 g)) s f := by
  rw [val_main_v32_apply, val_main_v29_apply, val_main_v31_apply, val_main_v30_apply, Ideal.addf_def, bias_v31_ix3]
  rw [lin]
  refine congrArg (· + x8 (ix1 f)) (Finset.sum_congr rfl fun k _ => ?_)
  rw [lidx_v29_ix3, ridx_v29_ix3, v28_at]

/-! ## The reference's result is the specification -/

/-- The reference's result before its final reshape, as an array [128, 128, 1024], is attention of each sequence. -/
theorem ref_is_attn (x0 : (⟨S128x131072, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Read.val_main_v32 (F := Ideal) x0 x1 x2 x3 x4 x5 x6 x7 x8 = Cert.Attn.G3 x0 x1 x2 x3 x4 x5 x6 x7 x8 := by
  funext i
  obtain ⟨b, s, f, rfl⟩ : ∃ (b s : Fin 128) (f : Fin 1024), i = ix3 b s f := ⟨i 0, i 1, i 2, eq_ix3 i⟩
  rw [v32_at, G3_ix3]
  rfl

end Cert.ReferenceIdeal.RefValue

end
-- ==== Proof.lean ====
/-
  The kernel computes single-head self-attention over 128 sequences of 128 positions by 1024 features, four sequences per
  grid point: one fused product of the folded block with the query, key and value weights side by side, the three thirds cut
  apart, the scaled inner products of query rows with key rows, the softmax along the keys, the mix of the value rows, and the
  output layer. The reference computes the same with three separate products, a division by the square root of 1024 in place of
  the product with 2⁻⁵, and one more maximum with −∞ after the row maximum.

  On the extended reals the two agree entry by entry: a change of float format is the identity; a product into the zero
  accumulator and a host contraction are the same finite sum; a column of the fused weight is a row of one of the three
  weights; the square root of 1024 is 32 and the quotient by 32 is the product with 1/32 on every extended real; the maximum
  of −∞ with a fold of max that starts at −∞ is that fold. Both results are the one function Cert.Attn.G3 of the nine
  argument arrays (the kernel's: KernelValue and KernelRun, over the payload read at an entry, KernelPayload; the reference's:
  RefAttn). No distributive law is used, so the precondition that the inputs are finite is never opened.

  The frames: each kernel program is eleven host operations, one pipelined region and one host operation; its run is the
  library's frame run of such a program with the body's triple proved by symbolic execution (FrameBits, FrameIdeal). The
  reference is a straight line of host operations; its frame is its run with the result dropped.
-/
import proofs.«106226_j67637144978282_2_alg».proof.Defs
import proofs.«106226_j67637144978282_2_alg».proof.Proof.Gen.Kernel
import proofs.«106226_j67637144978282_2_alg».proof.Proof.Gen.KernelIdeal
import proofs.«106226_j67637144978282_2_alg».proof.Proof.Gen.ReferenceIdeal
import proofs.«106226_j67637144978282_2_alg».proof.Proof.Gen.Pre_finite_inputs
import proofs.«106226_j67637144978282_2_alg».proof.Proof.Gen.ReferenceIdeal.Run
import proofs.«106226_j67637144978282_2_alg».proof.Proof.Gen.ReferenceIdeal.Read
import proofs.«106226_j67637144978282_2_alg».proof.Proof.FrameBits
import proofs.«106226_j67637144978282_2_alg».proof.Proof.FrameIdeal
import proofs.«106226_j67637144978282_2_alg».proof.Proof.KernelValue
import proofs.«106226_j67637144978282_2_alg».proof.Proof.KernelRun
import proofs.«106226_j67637144978282_2_alg».proof.Proof.RefAttn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reshaped attention of the argument arrays, which agree. -/
theorem algebraic : Cert.algebraic_KernelIdeal_ReferenceIdeal := by
  intro m ρ m' ρ' _ hagree
  refine ⟨_, Cert.KernelIdeal.HandRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  unfold Cert.ReferenceIdeal.Read.val_main_v33
  rw [Cert.ReferenceIdeal.RefValue.ref_is_attn, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
